-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2048x8192 : Shape := ⟨2, ![2048, 8192]⟩
abbrev S8192x2048 : Shape := ⟨2, ![8192, 2048]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8192x256 .f32) (main_arg1 : FVec F S2048x8192 .f32) (main_arg2 : FVec F S8192x2048 .f32) (main_arg3 : FVec F S256x256 .f32) (main_arg4 : FVec F S256 .f32) (main_arg5 : FVec F S256x256 .f32) (main_arg6 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S8192x256 : Shape := ⟨2, ![8192, 256]⟩
abbrev S2048x8192 : Shape := ⟨2, ![2048, 8192]⟩
abbrev S8192x2048 : Shape := ⟨2, ![8192, 2048]⟩
abbrev S256x256 : Shape := ⟨2, ![256, 256]⟩
abbrev S256 : Shape := ⟨1, ![256]⟩
abbrev S1x256 : Shape := ⟨2, ![1, 256]⟩
abbrev S2048x256 : Shape := ⟨2, ![2048, 256]⟩
abbrev S512x8192 : Shape := ⟨2, ![512, 8192]⟩
abbrev S512x256 : Shape := ⟨2, ![512, 256]⟩
abbrev S1024x2048 : Shape := ⟨2, ![1024, 2048]⟩
abbrev S1024x256 : Shape := ⟨2, ![1024, 256]⟩

abbrev nBuf : Space → Nat
  | .hbm => 12
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S2048x8192, .f32⟩
  | .hbm, ⟨2, _⟩ => ⟨S8192x2048, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S2048x256, .f32⟩
  | .hbm, ⟨10, _⟩ => ⟨S2048x256, .bf16⟩
  | .hbm, ⟨11, _⟩ => ⟨S8192x256, .f32⟩
  | .local _ .vmem, ⟨0, _⟩ => ⟨S512x8192, .f32⟩
  | .local _ .vmem, ⟨1, _⟩ => ⟨S512x8192, .f32⟩
  | .local _ .vmem, ⟨2, _⟩ => ⟨S8192x256, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | .local _ .vmem, ⟨9, _⟩ => ⟨S512x256, .bf16⟩
  | .local _ .vmem, ⟨10, _⟩ => ⟨S512x256, .bf16⟩
  | .local _ .vmem, ⟨11, _⟩ => ⟨S8192x256, .bf16⟩
  | .local _ .vmem, ⟨12, _⟩ => ⟨S1024x2048, .f32⟩
  | .local _ .vmem, ⟨13, _⟩ => ⟨S1024x2048, .f32⟩
  | .local _ .vmem, ⟨14, _⟩ => ⟨S2048x256, .bf16⟩
  | .local _ .vmem, ⟨15, _⟩ => ⟨S1024x256, .f32⟩
  | .local _ .vmem, ⟨16, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S256_S1x256 : S256.ShapeCasts S1x256
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  shapeCasts_S8192x256_S8192x256 : S8192x256.ShapeCasts S8192x256
  packedbf16_S8192x256_S8192x256_0_0 : (Rect.unit (s := S8192x256) ![0, 0] S8192x256.size inb_S8192x256_S8192x256_0_0).PackedRows (EltTy.packing .bf16)
  inb_S512x8192_S512x8192_0_0 : ∀ a, (![0, 0] : Fin 2 → Nat) a + S512x8192.size a ≤ S512x8192.size a
  h_S512x8192 : 0 < S512x8192.numel
  inb_S512x256_S512x256_0_0 : ∀ a, (![0, 0] : Fin 2 → Nat) a + S512x256.size a ≤ S512x256.size a
  h_S512x256 : 0 < S512x256.numel
  broadcasts_S1x256_S512x256 : S1x256.Broadcasts S512x256
  packedbf16_S512x256_S512x256_0_0 : (Rect.unit (s := S512x256) ![0, 0] S512x256.size inb_S512x256_S512x256_0_0).PackedRows (EltTy.packing .bf16)
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  dot_S8192x256_S256x256_S8192x256_1_0_0_1_n_n_wf : DotDims.WF S8192x256 S256x256 S8192x256 [1] [0] [0] [1] [] []
  dot_S512x8192_S8192x256_S512x256_1_0_0_1_n_n_wf : DotDims.WF S512x8192 S8192x256 S512x256 [1] [0] [0] [1] [] []
  dot_S512x256_S256x256_S512x256_1_0_0_1_n_n_wf : DotDims.WF S512x256 S256x256 S512x256 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S2048x8192.size a
  hwx0_0 : ∀ i : grid0.Coords, EltTy.bits .f32 = 32 ∨ (Rect.block (s := S2048x8192) S512x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S2048x256.size a
  hwx0_6 : ∀ i : grid0.Coords, EltTy.bits .f32 = 32 ∨ (Rect.block (s := S2048x256) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S2048x256.size a
  hwx0_7 : ∀ i : grid0.Coords, EltTy.bits .bf16 = 32 ∨ (Rect.block (s := S2048x256) S512x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .f32 = 32 ∨ (Rect.block (s := S8192x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S2048x256.size a
  hwx1_1 : ∀ i : grid1.Coords, EltTy.bits .bf16 = 32 ∨ (Rect.block (s := S2048x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S2048x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x256 : Shape := ⟨2, ![8192, 256]⟩
abbrev S2048x8192 : Shape := ⟨2, ![2048, 8192]⟩
abbrev S8192x2048 : Shape := ⟨2, ![8192, 2048]⟩
abbrev S256x256 : Shape := ⟨2, ![256, 256]⟩
abbrev S256 : Shape := ⟨1, ![256]⟩
abbrev S1x256 : Shape := ⟨2, ![1, 256]⟩
abbrev S2048x256 : Shape := ⟨2, ![2048, 256]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2048x8192, .f32⟩
  | .hbm, ⟨2, _⟩ => ⟨S8192x2048, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S2048x256, .f32⟩
  | .hbm, ⟨12, _⟩ => ⟨S_, .f32⟩
  | .hbm, ⟨13, _⟩ => ⟨S2048x256, .f32⟩
  | .hbm, ⟨14, _⟩ => ⟨S2048x256, .f32⟩
  | .hbm, ⟨15, _⟩ => ⟨S2048x256, .f32⟩
  | .hbm, ⟨16, _⟩ => ⟨S1x256, .f32⟩
  | .hbm, ⟨17, _⟩ => ⟨S2048x256, .f32⟩
  | .hbm, ⟨18, _⟩ => ⟨S2048x256, .f32⟩
  | .hbm, ⟨19, _⟩ => ⟨S8192x256, .f32⟩
  | .hbm, ⟨20, _⟩ => ⟨S_, .f32⟩
  | .hbm, ⟨21, _⟩ => ⟨S8192x256, .f32⟩
  | .hbm, ⟨22, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S2048x256 : S_.BroadcastsInDim S2048x256 (![] : Fin 0 → Fin S2048x256.rank)
  bcast_S1x256_S2048x256_0_1 : S1x256.BroadcastsInDim S2048x256 (![0, 1] : Fin 2 → Fin S2048x256.rank)
  bcast_S_S8192x256 : S_.BroadcastsInDim S8192x256 (![] : Fin 0 → Fin S8192x256.rank)
  dot_S8192x256_S256x256_S8192x256_1_0_0_1_n_n_wf : DotDims.WF S8192x256 S256x256 S8192x256 [1] [0] [0] [1] [] []
  dot_S2048x8192_S8192x256_S2048x256_1_0_0_1_n_n_wf : DotDims.WF S2048x8192 S8192x256 S2048x256 [1] [0] [0] [1] [] []
  dot_S2048x256_S256x256_S2048x256_1_0_0_1_n_n_wf : DotDims.WF S2048x256 S256x256 S2048x256 [1] [0] [0] [1] [] []
  dot_S8192x2048_S2048x256_S8192x256_1_0_0_1_n_n_wf : DotDims.WF S8192x2048 S2048x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S2048x8192_S8192x256_S2048x256_1_0_0_1_n_n : DotDims S2048x8192 S8192x256 S2048x256 where
  lhsContracting := [1]
  rhsContracting := [0]
  lhsNonContracting := [0]
  rhsNonContracting := [1]
  lhsBatch := []
  rhsBatch := []
  wf := dot_S2048x8192_S8192x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf

class Facts : Prop extends Facts₀ where

variable [Facts]
-- ==== Proof.BitsRegion0.lean ====
/-
  The first pallas_call as a pipeline over four grid points, with a scratch buffer the kernel keeps between them.

  Point `t` is handed rows 512·t … 512·t + 511 of the hyperedge-by-node incidence array (window 0, fetched at every
  point) and, whole, the node features, the first weight matrix, the first bias as a 1 × 256 row, the second weight
  matrix and the second bias row (windows 1 to 5, each fetched once, at the first point). At the first point only,
  the body first fills the scratch with the projected features `x · w1 + b1`; at every point it then reads the
  scratch, stores `max (rows · scratch) 0` over its first output buffer (window 6) and that times `w2` plus `b2`
  over its second (window 7), both written back at every point. The body loads each buffer it is about to store
  into, and does nothing with what it reads: those buffers may hold anything when the body starts.

  So after the first point, and after every later one, the scratch holds one and the same array — the projection of
  the whole feature array — and that is what the invariant between points says.

  Stated at a parameter `V`, the contents of the core's buffers when the call is entered.
-/
import proofs.«172285_g28836410425909_cont_9to1_1670_15_alg».proof.Proof.Gen.Kernel.Launch
import proofs.«172285_g28836410425909_cont_9to1_1670_15_alg».proof.Proof.Gen.Kernel.Skeleton
import proofs.«172285_g28836410425909_cont_9to1_1670_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block when the body starts, whether the point fetched it or
    an earlier one did: its block index has not moved since. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each is of a whole buffer -/

abbrev rRows : Rect S512x8192 := Rect.unit (s := S512x8192) ![0, 0] S512x8192.size inb_S512x8192_S512x8192_0_0
abbrev rFeat : Rect S8192x256 := Rect.unit (s := S8192x256) ![0, 0] S8192x256.size inb_S8192x256_S8192x256_0_0
abbrev rWt : Rect S256x256 := Rect.unit (s := S256x256) ![0, 0] S256x256.size inb_S256x256_S256x256_0_0
abbrev rBias : Rect S1x256 := Rect.unit (s := S1x256) ![0, 0] S1x256.size inb_S1x256_S1x256_0_0
abbrev rOut0 : Rect S512x256 := Rect.unit (s := S512x256) ![0, 0] S512x256.size inb_S512x256_S512x256_0_0

/-- The scratch the kernel keeps between points: a whole buffer of its own. -/
abbrev scM0 : Memref sig .tc .vmem S8192x256 .bf16 := Memref.whole cc0_scratch0

/-! ## The branch on the grid position -/

/-- The condition of the body's one branch, from the grid coordinate: "this is the first point". -/
abbrev cond0 (i : grid0.Coords) : Prop :=
  (Scalar.cmpi .ne (Scalar.extui (Scalar.cmpi .eq (BitVec.ofNat 32 (i 0).val) 0#32)) 0#32) = 1#1
/-- It holds at point 0 and at no other. -/
theorem hcond0 : ∀ t : Fin cfg0.N, cond0 (grid0.coords t) ↔ t.val = 0 :=
  (by decide +kernel : ∀ t : Fin grid0.N, cond0 (grid0.coords t) ↔ t.val = 0)

/-! ## What the body leaves -/

/-- The scratch after the first point's fill: the projection of the features. -/
def scr (x : Vec F S8192x256 .f32) (w : Vec F S256x256 .f32) (b : Vec F S1x256 .f32) : Vec F S8192x256 .bf16 :=
  View.canon [⟨rFeat, k0_pay1 (View.ld x rFeat) (View.ld w rWt) (View.ld b rBias)⟩]

/-- The first output buffer after the body, from the incidence rows and the scratch. -/
def outE (a : Vec F S512x8192 .f32) (s : Vec F S8192x256 .bf16) : Vec F S512x256 .f32 :=
  View.canon [⟨rOut0, k0_pay2 (View.ld a rRows) (View.ld s rFeat)⟩]

/-- The second output buffer after the body, from those and the second weights and bias row. -/
def outZ (a : Vec F S512x8192 .f32) (s : Vec F S8192x256 .bf16) (w : Vec F S256x256 .f32) (b : Vec F S1x256 .f32) : Vec F S512x256 .bf16 :=
  View.canon [⟨rOut0, k0_pay3 (View.ld a rRows) (View.ld s rFeat) (View.ld w rWt) (View.ld b rBias)⟩]

theorem coverScr (p0 : Vec F S8192x256 .bf16) (y : S8192x256.Idx) :
    ∃ pc ∈ ([⟨rFeat, p0⟩] : List (View.Piece (Elt F) S8192x256 .bf16)), y ∈ pc.1.set :=
  View.cover_of_tiled [⟨rFeat, p0⟩] S8192x256.size (by rfl) y
theorem coverE (p0 : Vec F S512x256 .f32) (y : S512x256.Idx) :
    ∃ pc ∈ ([⟨rOut0, p0⟩] : List (View.Piece (Elt F) S512x256 .f32)), y ∈ pc.1.set :=
  View.cover_of_tiled [⟨rOut0, p0⟩] S512x256.size (by rfl) y
theorem coverZ (p0 : Vec F S512x256 .bf16) (y : S512x256.Idx) :
    ∃ pc ∈ ([⟨rOut0, p0⟩] : List (View.Piece (Elt F) S512x256 .bf16)), y ∈ pc.1.set :=
  View.cover_of_tiled [⟨rOut0, p0⟩] S512x256.size (by rfl) y

/-! ## The body's two triples -/

set_option maxHeartbeats 2000000 in
/-- AT THE FIRST POINT, on whole memrefs — the six inputs' holding their blocks, the two outputs' and the scratch
    anything — the body runs to a continuation that finds the inputs as they were, the scratch at the projection
    `scr x w1 b1`, and the outputs at `outE` / `outZ` of the incidence rows and that same projection: the scratch is
    read back after it is filled, and a read of what one covering store left is that store's value. -/
theorem sound_first (c : Dev nD) (E : Set ℕ) (i : grid0.Coords) (hc : cond0 i)
    (arg1 : Memref sig .tc .vmem S512x8192 .f32) (harg1 : arg1.IsWhole) (arg2 : Memref sig .tc .vmem S8192x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S512x256 .f32) (harg7 : arg7.IsWhole) (arg8 : Memref sig .tc .vmem S512x256 .bf16) (harg8 : arg8.IsWhole)
    (arg9 : Memref sig .tc .vmem S8192x256 .bf16) (harg9 : arg9.IsWhole)
    (a : Vec F S512x8192 .f32) (x : Vec F S8192x256 .f32) (w1 : Vec F S256x256 .f32) (b1 : Vec F S1x256 .f32)
    (w2 : Vec F S256x256 .f32) (b2 : Vec F S1x256 .f32) (K : PUnit → sProp 𝕄) :
    iprop(owns (c : Thread nD τ) arg1 fullShare a ∗ owns (c : Thread nD τ) arg2 fullShare x ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare a ∗ owns (c : Thread nD τ) arg2 fullShare x ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (outE a (scr x w1 b1)) ∗ owns (c : Thread nD τ) arg8 fullShare (outZ a (scr x w1 b1) w2 b2)
            ∗ owns (c : Thread nD τ) arg9 fullShare (scr x w1 b1)) -∗ K ⟨⟩))
      ⊢ wp frame (wpE (defs₀ (F := F)) Variants.none c none) E (cc0__phase1_body i arg1 harg1 arg2 harg2 arg3 harg3 arg4 harg4 arg5 harg5 arg6 harg6 arg7 harg7 arg8 harg8 arg9 harg9) K := by
  simp only [cc0__phase1_body_eq_skeleton]; unfold cc0__phase1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1; subst hf2; subst hf3; subst hf4; subst hf5; subst hf6
  sl_exec (disch := exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    rw [View.read_writes_eq_canon _ _ _ (coverE _)]
    unfold outE scr
    sl_unfold_run_names
    simp only [View.readAt_eq_ld]
    rw [View.readCov_eq_canon_ld _ _ _ (coverScr _)]
  isplitl [H8]
  · iexists _; isplitr
    swap; · iexact H8
    ipureintro
    rw [View.read_writes_eq_canon _ _ _ (coverZ _)]
    unfold outZ scr
    sl_unfold_run_names
    simp only [View.readAt_eq_ld]
    rw [View.readCov_eq_canon_ld _ _ _ (coverScr _)]
  iexists _; isplitr
  swap; · iexact H9
  ipureintro
  exact View.read_writes_eq_canon _ _ _ (coverScr _)

set_option maxHeartbeats 2000000 in
/-- AT A LATER POINT the scratch holds some contents `s` when the body starts; nothing stores into it, and the
    outputs end at `outE` / `outZ` of the incidence rows and `s`. -/
theorem sound_later (c : Dev nD) (E : Set ℕ) (i : grid0.Coords) (hc : ¬cond0 i)
    (arg1 : Memref sig .tc .vmem S512x8192 .f32) (harg1 : arg1.IsWhole) (arg2 : Memref sig .tc .vmem S8192x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S512x256 .f32) (harg7 : arg7.IsWhole) (arg8 : Memref sig .tc .vmem S512x256 .bf16) (harg8 : arg8.IsWhole)
    (arg9 : Memref sig .tc .vmem S8192x256 .bf16) (harg9 : arg9.IsWhole)
    (a : Vec F S512x8192 .f32) (x : Vec F S8192x256 .f32) (w1 : Vec F S256x256 .f32) (b1 : Vec F S1x256 .f32)
    (w2 : Vec F S256x256 .f32) (b2 : Vec F S1x256 .f32) (s : Vec F S8192x256 .bf16) (K : PUnit → sProp 𝕄) :
    iprop(owns (c : Thread nD τ) arg1 fullShare a ∗ owns (c : Thread nD τ) arg2 fullShare x ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d) ∗ (∃ d, owns (c : Thread nD τ) arg8 fullShare d) ∗ owns (c : Thread nD τ) arg9 fullShare s
        ∗ (iprop(owns (c : Thread nD τ) arg1 fullShare a ∗ owns (c : Thread nD τ) arg2 fullShare x ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (outE a s) ∗ owns (c : Thread nD τ) arg8 fullShare (outZ a s w2 b2)
            ∗ owns (c : Thread nD τ) arg9 fullShare s) -∗ K ⟨⟩))
      ⊢ wp frame (wpE (defs₀ (F := F)) Variants.none c none) E (cc0__phase1_body i arg1 harg1 arg2 harg2 arg3 harg3 arg4 harg4 arg5 harg5 arg6 harg6 arg7 harg7 arg8 harg8 arg9 harg9) K := by
  simp only [cc0__phase1_body_eq_skeleton]; unfold cc0__phase1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  subst hf1; subst hf2; subst hf3; subst hf4; subst hf5; subst hf6; subst hf9
  sl_exec (disch := exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    exact View.read_writes_eq_canon _ _ _ (coverE _)
  isplitl [H8]
  · iexists _; isplitr
    swap; · iexact H8
    ipureintro
    exact View.read_writes_eq_canon _ _ _ (coverZ _)
  iexists f9; isplitr; · ipureintro; rfl
  iexact H9

/-! ## The invariant between points -/

/-- The second call's staging buffers, which this call never touches: each whole, at some contents. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant (every scoped buffer no window stages at some contents, the generator register at some
    state) with the scratch split off as a memref owned at some contents. -/
theorem PhiA0_eq (c : Dev nD) :
    (Pipeline.ΦA spec0 c : sProp 𝕄)
      = iprop(iprop((∃ d, owns (c : Thread nD τ) scM0 fullShare d) ∗ otherStaging c) ∗ (∃ r, prngReg c r)) := by
  unfold Pipeline.ΦA otherStaging; rw [scopedRest0_eq]; simp only [scM0, owns_whole]; try rfl

/-- The first point of the grid. -/
abbrev tFirst : Fin cfg0.N := t0_0

/-- What the scratch holds from the end of the first point on: the projection of the whole feature array by the
    first weights and bias, read off the arrays as the call finds them (windows 1, 2, 3 are whole arrays, the same
    block at every point). -/
def scrAt (c : Dev nD) : Vec F S8192x256 .bf16 :=
  scr (blk0 V c 1 tFirst) (blk0 V c 2 tFirst) (blk0 V c 3 tFirst)

/-- Before position `n`: at the start the class's invariant (the scratch at anything); afterwards the scratch at
    the projection, the other call's staging buffers at anything, the generator register at some state. -/
def PhiS (c : Dev nD) : ℕ → sProp 𝕄
  | 0 => Pipeline.ΦA spec0 c
  | _ + 1 => iprop(iprop(owns (c : Thread nD τ) scM0 fullShare (scrAt V c) ∗ otherStaging c) ∗ (∃ r, prngReg c r))

theorem PhiS_zero (c : Dev nD) (n : ℕ) (hz : n = 0) : PhiS V c n = Pipeline.ΦA spec0 c := by
  subst hz; rfl
theorem PhiS_succ (c : Dev nD) (n : ℕ) :
    PhiS V c (n + 1) = iprop(iprop(owns (c : Thread nD τ) scM0 fullShare (scrAt V c) ∗ otherStaging c) ∗ (∃ r, prngReg c r)) := rfl
theorem PhiS_pos (c : Dev nD) (n : ℕ) (hn : n ≠ 0) :
    PhiS V c n = iprop(iprop(owns (c : Thread nD τ) scM0 fullShare (scrAt V c) ∗ otherStaging c) ∗ (∃ r, prngReg c r)) := by
  cases n with
  | zero => exact absurd rfl hn
  | succ n => rfl

/-! ## The proof data -/

/-- The call's proof data on core `c`: the arrays as the call finds them; after the body at point `t` each input's
    buffer at its block, the first output's at `outE` and the second's at `outZ` of the point's incidence rows and
    the projection; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => outE (blk0 V c 0 t) (scrAt V c)
    | ⟨7, _⟩ => outZ (blk0 V c 0 t) (scrAt V c) (blk0 V c 4 t) (blk0 V c 5 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = outE (blk0 V c 0 t) (scrAt V c) := by dsimp only [dat0]
theorem after0_7 (c : Dev nD) (t : Fin cfg0.N) :
    (dat0 V c).after 7 t = outZ (blk0 V c 0 t) (scrAt V c) (blk0 V c 4 t) (blk0 V c 5 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d

/-- The invariant at a point's start, restated at the point's number. -/
theorem Phi_castSucc (c : Dev nD) (t : Fin cfg0.N) : (dat0 V c).Φ t.castSucc = PhiS V c t.val := by
  dsimp only [dat0]; simp only [Fin.coe_castSucc]

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point. At the first the invariant hands it the scratch at anything and takes it back at the
    projection; at a later one it hands it the scratch at the projection and takes it back unchanged. Every input's
    memref holds its block; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    show (dat0 V c).Φ t.succ = PhiS V c (t.val + 1) from rfl, PhiS_succ,
    after0_0, after0_1, after0_2, after0_3, after0_4, after0_5, after0_6, after0_7, Phi_castSucc]
  by_cases hz : t.val = 0
  · have ht : t = tFirst := Fin.ext hz
    subst ht
    rw [PhiS_zero V c _ hz, PhiA0_eq]
    iintro ⟨⟨⟨HS, Hot⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first c Set.univ (grid0.coords tFirst) ((hcond0 tFirst).mpr hz) _ _ _ _ _ _ _ _ _ _ _ _ _ _ _ _ _ _
      (blk0 V c 0 tFirst) (blk0 V c 1 tFirst) (blk0 V c 2 tFirst) (blk0 V c 3 tFirst) (blk0 V c 4 tFirst) (blk0 V c 5 tFirst) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hot Hg]
    · isplitl [HS Hot]
      · isplitl [HS]; · iexact HS
        iexact Hot
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos V c _ hz]
    iintro ⟨⟨⟨HS, Hot⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later c Set.univ (grid0.coords t) (fun h => hz ((hcond0 t).mp h)) _ _ _ _ _ _ _ _ _ _ _ _ _ _ _ _ _ _
      (blk0 V c 0 t) (blk0 V c 1 t) (blk0 V c 2 t) (blk0 V c 3 t) (blk0 V c 4 t) (blk0 V c 5 t) (scrAt V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hot Hg]
    · isplitl [HS Hot]
      · isplitl [HS]; · iexact HS
        iexact Hot
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the two ends -/

/-- What the call is entered with is the invariant before the first point. -/
theorem phi_in0 (c : Dev nD) : Pipeline.ΦA spec0 c ⊢ (dat0 V c).Φ 0 := by
  rw [show (dat0 V c).Φ 0 = PhiS V c 0 from rfl, PhiS_zero V c 0 rfl]
  try exact Idealize.SL.BI.Entails.refl _

/-- After the last point the invariant gives the class's back: what the scratch holds is forgotten. -/
theorem phi_out0 (c : Dev nD) : (dat0 V c).Φ (Fin.last cfg0.N) ⊢ Pipeline.ΦA spec0 c := by
  rw [show (dat0 V c).Φ (Fin.last cfg0.N) = PhiS V c cfg0.N from rfl,
    PhiS_pos V c _ (by have : cfg0.N = 4 := N_0; omega), PhiA0_eq]
  iintro ⟨⟨HS, Hot⟩, Hg⟩
  isplitl [HS Hot]
  · isplitl [HS]
    · iexists _; iexact HS
    iexact Hot
  iexact Hg

end Cert.Kernel.Frm

end
-- ==== Proof.BitsRegion1.lean ====
/-
  The second pallas_call, the scatter back onto the nodes, as a pipeline over eight grid points.

  Point `t` is handed rows 1024·t … 1024·t + 1023 of the node-by-hyperedge incidence array (window 0, fetched at
  every point) and the whole 2048 × 256 array `z` the first call left (window 1, fetched once, at the first point);
  it stores ONE value over its whole output buffer (window 2, written back at every point): the product of the two
  rectified. The body also loads its output buffer before storing into it; nothing is done with what it reads, so
  the buffer may hold anything when the body starts.

  Stated at a parameter `V`, the contents of the core's buffers when the call is entered.
-/
import proofs.«172285_g28836410425909_cont_9to1_1670_15_alg».proof.Proof.Gen.Kernel.Launch
import proofs.«172285_g28836410425909_cont_9to1_1670_15_alg».proof.Proof.Gen.Kernel.Skeleton
import proofs.«172285_g28836410425909_cont_9to1_1670_15_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The incidence rows' staging buffer holds the point's block when the body starts. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- So does `z`'s, at every point although it is fetched only at the first: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: each is of a whole buffer -/

abbrev rIn1_0 : Rect S1024x2048 := Rect.unit (s := S1024x2048) ![0, 0] S1024x2048.size inb_S1024x2048_S1024x2048_0_0
abbrev rIn1_1 : Rect S2048x256 := Rect.unit (s := S2048x256) ![0, 0] S2048x256.size inb_S2048x256_S2048x256_0_0
abbrev rOut1 : Rect S1024x256 := Rect.unit (s := S1024x256) ![0, 0] S1024x256.size inb_S1024x256_S1024x256_0_0

/-- What the body leaves in the output buffer, from the two input blocks: its one store, of the rectified product. -/
def out1 (a : Vec F S1024x2048 .f32) (z : Vec F S2048x256 .bf16) : Vec F S1024x256 .f32 :=
  View.canon [⟨rOut1, k1_pay1 (View.ld a rIn1_0) (View.ld z rIn1_1)⟩]

/-- The one store covers the buffer. -/
theorem cover1 (p0 : Vec F S1024x256 .f32) (y : S1024x256.Idx) :
    ∃ pc ∈ ([⟨rOut1, p0⟩] : List (View.Piece (Elt F) S1024x256 .f32)), y ∈ pc.1.set :=
  View.cover_of_tiled [⟨rOut1, p0⟩] S1024x256.size (by rfl) y

/-! ## The body's triple -/

set_option maxHeartbeats 1000000 in
/-- On whole staging memrefs, the inputs' holding `a` and `z` and the output's anything, the body runs to a
    continuation that finds the inputs as they were and the output at `out1 a z`. -/
theorem sound_kernel1 (c : Dev nD) (E : Set ℕ) (i : grid1.Coords)
    (arg1 : Memref sig .tc .vmem S1024x2048 .f32) (harg1 : arg1.IsWhole) (arg2 : Memref sig .tc .vmem S2048x256 .bf16) (harg2 : arg2.IsWhole)
    (arg3 : Memref sig .tc .vmem S1024x256 .f32) (harg3 : arg3.IsWhole)
    (a : Vec F S1024x2048 .f32) (z : Vec F S2048x256 .bf16) (K : PUnit → sProp 𝕄) :
    iprop(owns (c : Thread nD τ) arg1 fullShare a ∗ owns (c : Thread nD τ) arg2 fullShare z ∗ (∃ d, owns (c : Thread nD τ) arg3 fullShare d)
        ∗ (iprop(owns (c : Thread nD τ) arg1 fullShare a ∗ owns (c : Thread nD τ) arg2 fullShare z ∗ owns (c : Thread nD τ) arg3 fullShare (out1 a z)) -∗ K ⟨⟩))
      ⊢ wp frame (wpE (defs₀ (F := F)) Variants.none c none) E (cc1__phase2_body i arg1 harg1 arg2 harg2 arg3 harg3) K := by
  simp only [cc1__phase2_body_eq_skeleton]; unfold cc1__phase2_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The proof data -/

/-- The call's proof data on core `c`: the arrays as the call finds them; after the body at point `t` each input's
    buffer at its block and the output's at `out1` of the two; between points only the buffers no window stages and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = out1 (blk1 V c 0 t) (blk1 V c 1 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.BitsRun.lean ====
/-
  The whole program as three segments — the two bias reshapes on the host, the first pallas_call, the second — and
  what every buffer holds when it returns.

  Between segments the core's unscoped buffers hold: at launch the memory; after the host stretch the two reshaped
  bias rows beside it; after the first call its two output arrays at what the four write-backs left and everything
  else as before; after the second call its output array at what the eight write-backs left. No segment writes an
  argument, so each argument is read back through that chain to the launch memory; the two results are the second
  call's output array and the first call's first output array, which the second call does not touch.
-/
import proofs.«172285_g28836410425909_cont_9to1_1670_15_alg».proof.Proof.BitsRegion0
import proofs.«172285_g28836410425909_cont_9to1_1670_15_alg».proof.Proof.BitsRegion1
import proofs.«172285_g28836410425909_cont_9to1_1670_15_alg».proof.Proof.Gen.Kernel.Regions

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the two reshapes. -/
abbrev W1 : Dev nD → Valuation τ sig (Elt F) := fun c => StableHlo.after hostOps0 (W0 m ρ c)
/-- The same read at the TensorCore's references: what the first call's proof data take. -/
abbrev U1 : (c : Dev nD) → (b : Ref sig .tc) → Buf (Elt F) ((c : Thread nD τ).loc b) := fun c b => W1 m ρ c b
/-- After the first call: its arrays at what its write-backs leave, every other buffer as before. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second call, which is entered straight from the first call's exit. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- The host stretch writes only the two reshaped rows: any other buffer is as launched. -/
theorem W1_of (c : Dev nD) (r : Ref sig .tc) (h : r ∉ hostOps0_W) : W1 m ρ c (Proc.devRef .tc r) = m ((c : Thread nD τ).loc r) :=
  StableHlo.after_of_writes_sub hostOps0 _ hostOps0_writes h

/-! ## The arguments end as launched

An argument a call stages through an input window is never written back; one it does not stage it does not touch;
the host stretch writes only the two reshaped rows. So each argument is read back, boundary by boundary, to the
launch memory. -/

theorem W3_main_arg0 (c : Dev nD) : W3 m ρ c (Proc.devRef .tc main_arg0) = m ((c : Thread nD τ).loc main_arg0) :=
  (W3_of_ne m ρ c main_arg0 (by decide)).trans <| (W2_arr m ρ c 1).trans <| ((dat0 (U1 m ρ) c).arrAt_in 1 rfl _).trans <|
    (A_eq0 (U1 m ρ) c 1).trans (W1_of m ρ c main_arg0 (by decide))
theorem W3_main_arg1 (c : Dev nD) : W3 m ρ c (Proc.devRef .tc main_arg1) = m ((c : Thread nD τ).loc main_arg1) :=
  (W3_of_ne m ρ c main_arg1 (by decide)).trans <| (W2_arr m ρ c 0).trans <| ((dat0 (U1 m ρ) c).arrAt_in 0 rfl _).trans <|
    (A_eq0 (U1 m ρ) c 0).trans (W1_of m ρ c main_arg1 (by decide))
theorem W3_main_arg2 (c : Dev nD) : W3 m ρ c (Proc.devRef .tc main_arg2) = m ((c : Thread nD τ).loc main_arg2) :=
  (W3_arr m ρ c 0).trans <| ((dat1 (U2 m ρ) c).arrAt_in 0 rfl _).trans <| (A_eq1 (U2 m ρ) c 0).trans <|
    (W2_of_ne m ρ c main_arg2 (by decide)).trans (W1_of m ρ c main_arg2 (by decide))
theorem W3_main_arg3 (c : Dev nD) : W3 m ρ c (Proc.devRef .tc main_arg3) = m ((c : Thread nD τ).loc main_arg3) :=
  (W3_of_ne m ρ c main_arg3 (by decide)).trans <| (W2_arr m ρ c 2).trans <| ((dat0 (U1 m ρ) c).arrAt_in 2 rfl _).trans <|
    (A_eq0 (U1 m ρ) c 2).trans (W1_of m ρ c main_arg3 (by decide))
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans (W1_of m ρ c main_arg4 (by decide))
theorem W3_main_arg5 (c : Dev nD) : W3 m ρ c (Proc.devRef .tc main_arg5) = m ((c : Thread nD τ).loc main_arg5) :=
  (W3_of_ne m ρ c main_arg5 (by decide)).trans <| (W2_arr m ρ c 4).trans <| ((dat0 (U1 m ρ) c).arrAt_in 4 rfl _).trans <|
    (A_eq0 (U1 m ρ) c 4).trans (W1_of m ρ c main_arg5 (by decide))
theorem W3_main_arg6 (c : Dev nD) : W3 m ρ c (Proc.devRef .tc main_arg6) = m ((c : Thread nD τ).loc main_arg6) :=
  (W3_of_ne m ρ c main_arg6 (by decide)).trans <| (W2_of_ne m ρ c main_arg6 (by decide)).trans (W1_of m ρ c main_arg6 (by decide))

/-! ## The proof data family and the thread state -/

abbrev adm : (p : Fin 2) → (pcfgs (F := F) p).Adm := fun p => (cfgs p).toPCfg_adm
/-- Each call's proof data at its own entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
abbrev 𝒱₀ : Variants := Variants.none
abbrev Lq : GSem nD τ sig → Finset Unit := fun _ => ∅
abbrev lvq : GSem nD τ sig → Unit → ℕ := fun _ _ => 0
/-- What rides beside the buffers through every segment: the generator register at some state, and nothing owed. -/
abbrev Rq (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lq lvq :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rq

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last contents, the register at some state. -/
abbrev Tlast (c : Dev nD) : sProp 𝕄 := iprop(StableHlo.held (c : Thread nD τ) (Pipeline.ucRefs τ sig) (W3 m ρ c) ∗ ∃ r, prngReg c r)

/-! ## The two calls as segments -/

/-- After the last point the first call's invariant gives back every scoped buffer no window stages, at some
    contents, and the generator register at some state. -/
theorem phi_out0' (V : (c : Dev nD) → (b : Ref sig .tc) → Buf (Elt F) ((c : Thread nD τ).loc b)) (c : Dev nD) :
    (dat0 V c).Φ (Fin.last cfg0.N) ⊢ (iprop(Pipeline.scopedRest (Ix := Unit) (Name := ℕ) (U := UR sig nD τ) (Lvl := ℕ) (Val := Elt F) spec0 c ∗ ∃ r, prngReg c r) : sProp 𝕄) := by
  have h := phi_out0 V c
  unfold Pipeline.ΦA at h
  exact h

set_option backward.isDefEq.respectTransparency.types false in
/-- The first call: entered from every unscoped buffer at `W1`, left at `W2`. Its arrays are split out of the
    unscoped buffers and put back at their exit contents; the generator register goes into the invariant and comes
    back; the scratch goes in at anything and comes back at anything. -/
def reg0 : Pipeline.RegionSeg (pcfgs (F := F)) adm (pdats m ρ) () defs₀ 𝒱₀ Lq lvq 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lq lvq 0 fun _ _ => rfl
  pre c := iprop(StableHlo.held (c : Thread nD τ) (Pipeline.ucRefs τ sig) (W1 m ρ c) ∗ Rq c)
  post c := iprop(StableHlo.held (c : Thread nD τ) (Pipeline.ucRefs τ sig) (W2 m ρ c) ∗ Rq c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (dat0 (U1 m ρ) c).Φ (Fin.last cfg0.N) from rfl]
    have hback := phi_out0' (U1 m ρ) c
    iintro H
    ihave H2 := hback $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`; its invariant is the class's. -/
def reg1 : Pipeline.RegionSeg (pcfgs (F := F)) adm (pdats m ρ) () defs₀ 𝒱₀ Lq lvq 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ Lq lvq 1 fun _ _ => rfl
  pre c := iprop(StableHlo.held (c : Thread nD τ) (Pipeline.ucRefs τ sig) (W2 m ρ c) ∗ Rq c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ Lq lvq) :=
  [ .host (hseg hostOps0 hostOps0_sub hostOps0_fresh (W0 m ρ)),
    .region (reg0 m ρ),
    .region (reg1 m ρ) ]

theorem main_run (c : Dev nD) : main (F := F) c = Pipeline.Seg.run (segs m ρ) := (main_chain c).trans (by chain_rfl)

set_option backward.isDefEq.respectTransparency.types false in
/-- THE RUN. From any memory with zero counters every weakly fair execution of the program on the TensorCores
    terminates, nothing faulting, and in every final state each unscoped buffer holds what the last boundary's
    contents `W3` say. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ Lq lvq m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rq c)) (Tₙ := Tlast m ρ)
    (hch := ⟨fun _ => .rfl, fun _ => .rfl, fun _ => .rfl, fun _ => .rfl⟩)
    (hinit := by
      refine Pipeline.initEach Lq lvq fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.Kernel.Frm

end
-- ==== Proof.IdealRegion0.lean ====
/-
  The first pallas_call as a pipeline over four grid points, with a scratch buffer the kernel keeps between them.

  Point `t` is handed rows 512·t … 512·t + 511 of the hyperedge-by-node incidence array (window 0, fetched at every
  point) and, whole, the node features, the first weight matrix, the first bias as a 1 × 256 row, the second weight
  matrix and the second bias row (windows 1 to 5, each fetched once, at the first point). At the first point only,
  the body first fills the scratch with the projected features `x · w1 + b1`; at every point it then reads the
  scratch, stores `max (rows · scratch) 0` over its first output buffer (window 6) and that times `w2` plus `b2`
  over its second (window 7), both written back at every point. The body loads each buffer it is about to store
  into, and does nothing with what it reads: those buffers may hold anything when the body starts.

  So after the first point, and after every later one, the scratch holds one and the same array — the projection of
  the whole feature array — and that is what the invariant between points says.

  Stated at a parameter `V`, the contents of the core's buffers when the call is entered.
-/
import proofs.«172285_g28836410425909_cont_9to1_1670_15_alg».proof.Proof.Gen.KernelIdeal.Launch
import proofs.«172285_g28836410425909_cont_9to1_1670_15_alg».proof.Proof.Gen.KernelIdeal.Skeleton
import proofs.«172285_g28836410425909_cont_9to1_1670_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block when the body starts, whether the point fetched it or
    an earlier one did: its block index has not moved since. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: each is of a whole buffer -/

abbrev rRows : Rect S512x8192 := Rect.unit (s := S512x8192) ![0, 0] S512x8192.size inb_S512x8192_S512x8192_0_0
abbrev rFeat : Rect S8192x256 := Rect.unit (s := S8192x256) ![0, 0] S8192x256.size inb_S8192x256_S8192x256_0_0
abbrev rWt : Rect S256x256 := Rect.unit (s := S256x256) ![0, 0] S256x256.size inb_S256x256_S256x256_0_0
abbrev rBias : Rect S1x256 := Rect.unit (s := S1x256) ![0, 0] S1x256.size inb_S1x256_S1x256_0_0
abbrev rOut0 : Rect S512x256 := Rect.unit (s := S512x256) ![0, 0] S512x256.size inb_S512x256_S512x256_0_0

/-- The scratch the kernel keeps between points: a whole buffer of its own. -/
abbrev scM0 : Memref sig .tc .vmem S8192x256 .bf16 := Memref.whole cc0_scratch0

/-! ## The branch on the grid position -/

/-- The condition of the body's one branch, from the grid coordinate: "this is the first point". -/
abbrev cond0 (i : grid0.Coords) : Prop :=
  (Scalar.cmpi .ne (Scalar.extui (Scalar.cmpi .eq (BitVec.ofNat 32 (i 0).val) 0#32)) 0#32) = 1#1
/-- It holds at point 0 and at no other. -/
theorem hcond0 : ∀ t : Fin cfg0.N, cond0 (grid0.coords t) ↔ t.val = 0 :=
  (by decide +kernel : ∀ t : Fin grid0.N, cond0 (grid0.coords t) ↔ t.val = 0)

/-! ## What the body leaves -/

/-- The scratch after the first point's fill: the projection of the features. -/
def scr (x : Vec F S8192x256 .f32) (w : Vec F S256x256 .f32) (b : Vec F S1x256 .f32) : Vec F S8192x256 .bf16 :=
  View.canon [⟨rFeat, k0_pay1 (View.ld x rFeat) (View.ld w rWt) (View.ld b rBias)⟩]

/-- The first output buffer after the body, from the incidence rows and the scratch. -/
def outE (a : Vec F S512x8192 .f32) (s : Vec F S8192x256 .bf16) : Vec F S512x256 .f32 :=
  View.canon [⟨rOut0, k0_pay2 (View.ld a rRows) (View.ld s rFeat)⟩]

/-- The second output buffer after the body, from those and the second weights and bias row. -/
def outZ (a : Vec F S512x8192 .f32) (s : Vec F S8192x256 .bf16) (w : Vec F S256x256 .f32) (b : Vec F S1x256 .f32) : Vec F S512x256 .bf16 :=
  View.canon [⟨rOut0, k0_pay3 (View.ld a rRows) (View.ld s rFeat) (View.ld w rWt) (View.ld b rBias)⟩]

theorem coverScr (p0 : Vec F S8192x256 .bf16) (y : S8192x256.Idx) :
    ∃ pc ∈ ([⟨rFeat, p0⟩] : List (View.Piece (Elt F) S8192x256 .bf16)), y ∈ pc.1.set :=
  View.cover_of_tiled [⟨rFeat, p0⟩] S8192x256.size (by rfl) y
theorem coverE (p0 : Vec F S512x256 .f32) (y : S512x256.Idx) :
    ∃ pc ∈ ([⟨rOut0, p0⟩] : List (View.Piece (Elt F) S512x256 .f32)), y ∈ pc.1.set :=
  View.cover_of_tiled [⟨rOut0, p0⟩] S512x256.size (by rfl) y
theorem coverZ (p0 : Vec F S512x256 .bf16) (y : S512x256.Idx) :
    ∃ pc ∈ ([⟨rOut0, p0⟩] : List (View.Piece (Elt F) S512x256 .bf16)), y ∈ pc.1.set :=
  View.cover_of_tiled [⟨rOut0, p0⟩] S512x256.size (by rfl) y

/-! ## The body's two triples -/

set_option maxHeartbeats 2000000 in
/-- AT THE FIRST POINT, on whole memrefs — the six inputs' holding their blocks, the two outputs' and the scratch
    anything — the body runs to a continuation that finds the inputs as they were, the scratch at the projection
    `scr x w1 b1`, and the outputs at `outE` / `outZ` of the incidence rows and that same projection: the scratch is
    read back after it is filled, and a read of what one covering store left is that store's value. -/
theorem sound_first (c : Dev nD) (E : Set ℕ) (i : grid0.Coords) (hc : cond0 i)
    (arg1 : Memref sig .tc .vmem S512x8192 .f32) (harg1 : arg1.IsWhole) (arg2 : Memref sig .tc .vmem S8192x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S512x256 .f32) (harg7 : arg7.IsWhole) (arg8 : Memref sig .tc .vmem S512x256 .bf16) (harg8 : arg8.IsWhole)
    (arg9 : Memref sig .tc .vmem S8192x256 .bf16) (harg9 : arg9.IsWhole)
    (a : Vec F S512x8192 .f32) (x : Vec F S8192x256 .f32) (w1 : Vec F S256x256 .f32) (b1 : Vec F S1x256 .f32)
    (w2 : Vec F S256x256 .f32) (b2 : Vec F S1x256 .f32) (K : PUnit → sProp 𝕄) :
    iprop(owns (c : Thread nD τ) arg1 fullShare a ∗ owns (c : Thread nD τ) arg2 fullShare x ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare a ∗ owns (c : Thread nD τ) arg2 fullShare x ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (outE a (scr x w1 b1)) ∗ owns (c : Thread nD τ) arg8 fullShare (outZ a (scr x w1 b1) w2 b2)
            ∗ owns (c : Thread nD τ) arg9 fullShare (scr x w1 b1)) -∗ K ⟨⟩))
      ⊢ wp frame (wpE (defs₀ (F := F)) Variants.none c none) E (cc0__phase1_body i arg1 harg1 arg2 harg2 arg3 harg3 arg4 harg4 arg5 harg5 arg6 harg6 arg7 harg7 arg8 harg8 arg9 harg9) K := by
  simp only [cc0__phase1_body_eq_skeleton]; unfold cc0__phase1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1; subst hf2; subst hf3; subst hf4; subst hf5; subst hf6
  sl_exec (disch := exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    rw [View.read_writes_eq_canon _ _ _ (coverE _)]
    unfold outE scr
    sl_unfold_run_names
    simp only [View.readAt_eq_ld]
    rw [View.readCov_eq_canon_ld _ _ _ (coverScr _)]
  isplitl [H8]
  · iexists _; isplitr
    swap; · iexact H8
    ipureintro
    rw [View.read_writes_eq_canon _ _ _ (coverZ _)]
    unfold outZ scr
    sl_unfold_run_names
    simp only [View.readAt_eq_ld]
    rw [View.readCov_eq_canon_ld _ _ _ (coverScr _)]
  iexists _; isplitr
  swap; · iexact H9
  ipureintro
  exact View.read_writes_eq_canon _ _ _ (coverScr _)

set_option maxHeartbeats 2000000 in
/-- AT A LATER POINT the scratch holds some contents `s` when the body starts; nothing stores into it, and the
    outputs end at `outE` / `outZ` of the incidence rows and `s`. -/
theorem sound_later (c : Dev nD) (E : Set ℕ) (i : grid0.Coords) (hc : ¬cond0 i)
    (arg1 : Memref sig .tc .vmem S512x8192 .f32) (harg1 : arg1.IsWhole) (arg2 : Memref sig .tc .vmem S8192x256 .f32) (harg2 : arg2.IsWhole)
    (arg3 : Memref sig .tc .vmem S256x256 .f32) (harg3 : arg3.IsWhole) (arg4 : Memref sig .tc .vmem S1x256 .f32) (harg4 : arg4.IsWhole)
    (arg5 : Memref sig .tc .vmem S256x256 .f32) (harg5 : arg5.IsWhole) (arg6 : Memref sig .tc .vmem S1x256 .f32) (harg6 : arg6.IsWhole)
    (arg7 : Memref sig .tc .vmem S512x256 .f32) (harg7 : arg7.IsWhole) (arg8 : Memref sig .tc .vmem S512x256 .bf16) (harg8 : arg8.IsWhole)
    (arg9 : Memref sig .tc .vmem S8192x256 .bf16) (harg9 : arg9.IsWhole)
    (a : Vec F S512x8192 .f32) (x : Vec F S8192x256 .f32) (w1 : Vec F S256x256 .f32) (b1 : Vec F S1x256 .f32)
    (w2 : Vec F S256x256 .f32) (b2 : Vec F S1x256 .f32) (s : Vec F S8192x256 .bf16) (K : PUnit → sProp 𝕄) :
    iprop(owns (c : Thread nD τ) arg1 fullShare a ∗ owns (c : Thread nD τ) arg2 fullShare x ∗ owns (c : Thread nD τ) arg3 fullShare w1
        ∗ owns (c : Thread nD τ) arg4 fullShare b1 ∗ owns (c : Thread nD τ) arg5 fullShare w2 ∗ owns (c : Thread nD τ) arg6 fullShare b2
        ∗ (∃ d, owns (c : Thread nD τ) arg7 fullShare d) ∗ (∃ d, owns (c : Thread nD τ) arg8 fullShare d) ∗ owns (c : Thread nD τ) arg9 fullShare s
        ∗ (iprop(owns (c : Thread nD τ) arg1 fullShare a ∗ owns (c : Thread nD τ) arg2 fullShare x ∗ owns (c : Thread nD τ) arg3 fullShare w1
            ∗ owns (c : Thread nD τ) arg4 fullShare b1 ∗ owns (c : Thread nD τ) arg5 fullShare w2 ∗ owns (c : Thread nD τ) arg6 fullShare b2
            ∗ owns (c : Thread nD τ) arg7 fullShare (outE a s) ∗ owns (c : Thread nD τ) arg8 fullShare (outZ a s w2 b2)
            ∗ owns (c : Thread nD τ) arg9 fullShare s) -∗ K ⟨⟩))
      ⊢ wp frame (wpE (defs₀ (F := F)) Variants.none c none) E (cc0__phase1_body i arg1 harg1 arg2 harg2 arg3 harg3 arg4 harg4 arg5 harg5 arg6 harg6 arg7 harg7 arg8 harg8 arg9 harg9) K := by
  simp only [cc0__phase1_body_eq_skeleton]; unfold cc0__phase1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  subst hf1; subst hf2; subst hf3; subst hf4; subst hf5; subst hf6; subst hf9
  sl_exec (disch := exact hc)
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    exact View.read_writes_eq_canon _ _ _ (coverE _)
  isplitl [H8]
  · iexists _; isplitr
    swap; · iexact H8
    ipureintro
    exact View.read_writes_eq_canon _ _ _ (coverZ _)
  iexists f9; isplitr; · ipureintro; rfl
  iexact H9

/-! ## The invariant between points -/

/-- The second call's staging buffers, which this call never touches: each whole, at some contents. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant (every scoped buffer no window stages at some contents, the generator register at some
    state) with the scratch split off as a memref owned at some contents. -/
theorem PhiA0_eq (c : Dev nD) :
    (Pipeline.ΦA spec0 c : sProp 𝕄)
      = iprop(iprop((∃ d, owns (c : Thread nD τ) scM0 fullShare d) ∗ otherStaging c) ∗ (∃ r, prngReg c r)) := by
  unfold Pipeline.ΦA otherStaging; rw [scopedRest0_eq]; simp only [scM0, owns_whole]; try rfl

/-- The first point of the grid. -/
abbrev tFirst : Fin cfg0.N := t0_0

/-- What the scratch holds from the end of the first point on: the projection of the whole feature array by the
    first weights and bias, read off the arrays as the call finds them (windows 1, 2, 3 are whole arrays, the same
    block at every point). -/
def scrAt (c : Dev nD) : Vec F S8192x256 .bf16 :=
  scr (blk0 V c 1 tFirst) (blk0 V c 2 tFirst) (blk0 V c 3 tFirst)

/-- Before position `n`: at the start the class's invariant (the scratch at anything); afterwards the scratch at
    the projection, the other call's staging buffers at anything, the generator register at some state. -/
def PhiS (c : Dev nD) : ℕ → sProp 𝕄
  | 0 => Pipeline.ΦA spec0 c
  | _ + 1 => iprop(iprop(owns (c : Thread nD τ) scM0 fullShare (scrAt V c) ∗ otherStaging c) ∗ (∃ r, prngReg c r))

theorem PhiS_zero (c : Dev nD) (n : ℕ) (hz : n = 0) : PhiS V c n = Pipeline.ΦA spec0 c := by
  subst hz; rfl
theorem PhiS_succ (c : Dev nD) (n : ℕ) :
    PhiS V c (n + 1) = iprop(iprop(owns (c : Thread nD τ) scM0 fullShare (scrAt V c) ∗ otherStaging c) ∗ (∃ r, prngReg c r)) := rfl
theorem PhiS_pos (c : Dev nD) (n : ℕ) (hn : n ≠ 0) :
    PhiS V c n = iprop(iprop(owns (c : Thread nD τ) scM0 fullShare (scrAt V c) ∗ otherStaging c) ∗ (∃ r, prngReg c r)) := by
  cases n with
  | zero => exact absurd rfl hn
  | succ n => rfl

/-! ## The proof data -/

/-- The call's proof data on core `c`: the arrays as the call finds them; after the body at point `t` each input's
    buffer at its block, the first output's at `outE` and the second's at `outZ` of the point's incidence rows and
    the projection; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => outE (blk0 V c 0 t) (scrAt V c)
    | ⟨7, _⟩ => outZ (blk0 V c 0 t) (scrAt V c) (blk0 V c 4 t) (blk0 V c 5 t)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = outE (blk0 V c 0 t) (scrAt V c) := by dsimp only [dat0]
theorem after0_7 (c : Dev nD) (t : Fin cfg0.N) :
    (dat0 V c).after 7 t = outZ (blk0 V c 0 t) (scrAt V c) (blk0 V c 4 t) (blk0 V c 5 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d

/-- The invariant at a point's start, restated at the point's number. -/
theorem Phi_castSucc (c : Dev nD) (t : Fin cfg0.N) : (dat0 V c).Φ t.castSucc = PhiS V c t.val := by
  dsimp only [dat0]; simp only [Fin.coe_castSucc]

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point. At the first the invariant hands it the scratch at anything and takes it back at the
    projection; at a later one it hands it the scratch at the projection and takes it back unchanged. Every input's
    memref holds its block; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    show (dat0 V c).Φ t.succ = PhiS V c (t.val + 1) from rfl, PhiS_succ,
    after0_0, after0_1, after0_2, after0_3, after0_4, after0_5, after0_6, after0_7, Phi_castSucc]
  by_cases hz : t.val = 0
  · have ht : t = tFirst := Fin.ext hz
    subst ht
    rw [PhiS_zero V c _ hz, PhiA0_eq]
    iintro ⟨⟨⟨HS, Hot⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first c Set.univ (grid0.coords tFirst) ((hcond0 tFirst).mpr hz) _ _ _ _ _ _ _ _ _ _ _ _ _ _ _ _ _ _
      (blk0 V c 0 tFirst) (blk0 V c 1 tFirst) (blk0 V c 2 tFirst) (blk0 V c 3 tFirst) (blk0 V c 4 tFirst) (blk0 V c 5 tFirst) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hot Hg]
    · isplitl [HS Hot]
      · isplitl [HS]; · iexact HS
        iexact Hot
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos V c _ hz]
    iintro ⟨⟨⟨HS, Hot⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later c Set.univ (grid0.coords t) (fun h => hz ((hcond0 t).mp h)) _ _ _ _ _ _ _ _ _ _ _ _ _ _ _ _ _ _
      (blk0 V c 0 t) (blk0 V c 1 t) (blk0 V c 2 t) (blk0 V c 3 t) (blk0 V c 4 t) (blk0 V c 5 t) (scrAt V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hot Hg]
    · isplitl [HS Hot]
      · isplitl [HS]; · iexact HS
        iexact Hot
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the two ends -/

/-- What the call is entered with is the invariant before the first point. -/
theorem phi_in0 (c : Dev nD) : Pipeline.ΦA spec0 c ⊢ (dat0 V c).Φ 0 := by
  rw [show (dat0 V c).Φ 0 = PhiS V c 0 from rfl, PhiS_zero V c 0 rfl]
  try exact Idealize.SL.BI.Entails.refl _

/-- After the last point the invariant gives the class's back: what the scratch holds is forgotten. -/
theorem phi_out0 (c : Dev nD) : (dat0 V c).Φ (Fin.last cfg0.N) ⊢ Pipeline.ΦA spec0 c := by
  rw [show (dat0 V c).Φ (Fin.last cfg0.N) = PhiS V c cfg0.N from rfl,
    PhiS_pos V c _ (by have : cfg0.N = 4 := N_0; omega), PhiA0_eq]
  iintro ⟨⟨HS, Hot⟩, Hg⟩
  isplitl [HS Hot]
  · isplitl [HS]
    · iexists _; iexact HS
    iexact Hot
  iexact Hg

end Cert.KernelIdeal.Frm

end
-- ==== Proof.IdealRegion1.lean ====
/-
  The second pallas_call, the scatter back onto the nodes, as a pipeline over eight grid points.

  Point `t` is handed rows 1024·t … 1024·t + 1023 of the node-by-hyperedge incidence array (window 0, fetched at
  every point) and the whole 2048 × 256 array `z` the first call left (window 1, fetched once, at the first point);
  it stores ONE value over its whole output buffer (window 2, written back at every point): the product of the two
  rectified. The body also loads its output buffer before storing into it; nothing is done with what it reads, so
  the buffer may hold anything when the body starts.

  Stated at a parameter `V`, the contents of the core's buffers when the call is entered.
-/
import proofs.«172285_g28836410425909_cont_9to1_1670_15_alg».proof.Proof.Gen.KernelIdeal.Launch
import proofs.«172285_g28836410425909_cont_9to1_1670_15_alg».proof.Proof.Gen.KernelIdeal.Skeleton
import proofs.«172285_g28836410425909_cont_9to1_1670_15_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The incidence rows' staging buffer holds the point's block when the body starts. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- So does `z`'s, at every point although it is fetched only at the first: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: each is of a whole buffer -/

abbrev rIn1_0 : Rect S1024x2048 := Rect.unit (s := S1024x2048) ![0, 0] S1024x2048.size inb_S1024x2048_S1024x2048_0_0
abbrev rIn1_1 : Rect S2048x256 := Rect.unit (s := S2048x256) ![0, 0] S2048x256.size inb_S2048x256_S2048x256_0_0
abbrev rOut1 : Rect S1024x256 := Rect.unit (s := S1024x256) ![0, 0] S1024x256.size inb_S1024x256_S1024x256_0_0

/-- What the body leaves in the output buffer, from the two input blocks: its one store, of the rectified product. -/
def out1 (a : Vec F S1024x2048 .f32) (z : Vec F S2048x256 .bf16) : Vec F S1024x256 .f32 :=
  View.canon [⟨rOut1, k1_pay1 (View.ld a rIn1_0) (View.ld z rIn1_1)⟩]

/-- The one store covers the buffer. -/
theorem cover1 (p0 : Vec F S1024x256 .f32) (y : S1024x256.Idx) :
    ∃ pc ∈ ([⟨rOut1, p0⟩] : List (View.Piece (Elt F) S1024x256 .f32)), y ∈ pc.1.set :=
  View.cover_of_tiled [⟨rOut1, p0⟩] S1024x256.size (by rfl) y

/-! ## The body's triple -/

set_option maxHeartbeats 1000000 in
/-- On whole staging memrefs, the inputs' holding `a` and `z` and the output's anything, the body runs to a
    continuation that finds the inputs as they were and the output at `out1 a z`. -/
theorem sound_kernel1 (c : Dev nD) (E : Set ℕ) (i : grid1.Coords)
    (arg1 : Memref sig .tc .vmem S1024x2048 .f32) (harg1 : arg1.IsWhole) (arg2 : Memref sig .tc .vmem S2048x256 .bf16) (harg2 : arg2.IsWhole)
    (arg3 : Memref sig .tc .vmem S1024x256 .f32) (harg3 : arg3.IsWhole)
    (a : Vec F S1024x2048 .f32) (z : Vec F S2048x256 .bf16) (K : PUnit → sProp 𝕄) :
    iprop(owns (c : Thread nD τ) arg1 fullShare a ∗ owns (c : Thread nD τ) arg2 fullShare z ∗ (∃ d, owns (c : Thread nD τ) arg3 fullShare d)
        ∗ (iprop(owns (c : Thread nD τ) arg1 fullShare a ∗ owns (c : Thread nD τ) arg2 fullShare z ∗ owns (c : Thread nD τ) arg3 fullShare (out1 a z)) -∗ K ⟨⟩))
      ⊢ wp frame (wpE (defs₀ (F := F)) Variants.none c none) E (cc1__phase2_body i arg1 harg1 arg2 harg2 arg3 harg3) K := by
  simp only [cc1__phase2_body_eq_skeleton]; unfold cc1__phase2_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The proof data -/

/-- The call's proof data on core `c`: the arrays as the call finds them; after the body at point `t` each input's
    buffer at its block and the output's at `out1` of the two; between points only the buffers no window stages and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = out1 (blk1 V c 0 t) (blk1 V c 1 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.IdealRun.lean ====
/-
  The whole program as three segments — the two bias reshapes on the host, the first pallas_call, the second — and
  what every buffer holds when it returns.

  Between segments the core's unscoped buffers hold: at launch the memory; after the host stretch the two reshaped
  bias rows beside it; after the first call its two output arrays at what the four write-backs left and everything
  else as before; after the second call its output array at what the eight write-backs left. No segment writes an
  argument, so each argument is read back through that chain to the launch memory; the two results are the second
  call's output array and the first call's first output array, which the second call does not touch.
-/
import proofs.«172285_g28836410425909_cont_9to1_1670_15_alg».proof.Proof.IdealRegion0
import proofs.«172285_g28836410425909_cont_9to1_1670_15_alg».proof.Proof.IdealRegion1
import proofs.«172285_g28836410425909_cont_9to1_1670_15_alg».proof.Proof.Gen.KernelIdeal.Regions

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the two reshapes. -/
abbrev W1 : Dev nD → Valuation τ sig (Elt F) := fun c => StableHlo.after hostOps0 (W0 m ρ c)
/-- The same read at the TensorCore's references: what the first call's proof data take. -/
abbrev U1 : (c : Dev nD) → (b : Ref sig .tc) → Buf (Elt F) ((c : Thread nD τ).loc b) := fun c b => W1 m ρ c b
/-- After the first call: its arrays at what its write-backs leave, every other buffer as before. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After the second call, which is entered straight from the first call's exit. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- The host stretch writes only the two reshaped rows: any other buffer is as launched. -/
theorem W1_of (c : Dev nD) (r : Ref sig .tc) (h : r ∉ hostOps0_W) : W1 m ρ c (Proc.devRef .tc r) = m ((c : Thread nD τ).loc r) :=
  StableHlo.after_of_writes_sub hostOps0 _ hostOps0_writes h

/-! ## The arguments end as launched

An argument a call stages through an input window is never written back; one it does not stage it does not touch;
the host stretch writes only the two reshaped rows. So each argument is read back, boundary by boundary, to the
launch memory. -/

theorem W3_main_arg0 (c : Dev nD) : W3 m ρ c (Proc.devRef .tc main_arg0) = m ((c : Thread nD τ).loc main_arg0) :=
  (W3_of_ne m ρ c main_arg0 (by decide)).trans <| (W2_arr m ρ c 1).trans <| ((dat0 (U1 m ρ) c).arrAt_in 1 rfl _).trans <|
    (A_eq0 (U1 m ρ) c 1).trans (W1_of m ρ c main_arg0 (by decide))
theorem W3_main_arg1 (c : Dev nD) : W3 m ρ c (Proc.devRef .tc main_arg1) = m ((c : Thread nD τ).loc main_arg1) :=
  (W3_of_ne m ρ c main_arg1 (by decide)).trans <| (W2_arr m ρ c 0).trans <| ((dat0 (U1 m ρ) c).arrAt_in 0 rfl _).trans <|
    (A_eq0 (U1 m ρ) c 0).trans (W1_of m ρ c main_arg1 (by decide))
theorem W3_main_arg2 (c : Dev nD) : W3 m ρ c (Proc.devRef .tc main_arg2) = m ((c : Thread nD τ).loc main_arg2) :=
  (W3_arr m ρ c 0).trans <| ((dat1 (U2 m ρ) c).arrAt_in 0 rfl _).trans <| (A_eq1 (U2 m ρ) c 0).trans <|
    (W2_of_ne m ρ c main_arg2 (by decide)).trans (W1_of m ρ c main_arg2 (by decide))
theorem W3_main_arg3 (c : Dev nD) : W3 m ρ c (Proc.devRef .tc main_arg3) = m ((c : Thread nD τ).loc main_arg3) :=
  (W3_of_ne m ρ c main_arg3 (by decide)).trans <| (W2_arr m ρ c 2).trans <| ((dat0 (U1 m ρ) c).arrAt_in 2 rfl _).trans <|
    (A_eq0 (U1 m ρ) c 2).trans (W1_of m ρ c main_arg3 (by decide))
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans (W1_of m ρ c main_arg4 (by decide))
theorem W3_main_arg5 (c : Dev nD) : W3 m ρ c (Proc.devRef .tc main_arg5) = m ((c : Thread nD τ).loc main_arg5) :=
  (W3_of_ne m ρ c main_arg5 (by decide)).trans <| (W2_arr m ρ c 4).trans <| ((dat0 (U1 m ρ) c).arrAt_in 4 rfl _).trans <|
    (A_eq0 (U1 m ρ) c 4).trans (W1_of m ρ c main_arg5 (by decide))
theorem W3_main_arg6 (c : Dev nD) : W3 m ρ c (Proc.devRef .tc main_arg6) = m ((c : Thread nD τ).loc main_arg6) :=
  (W3_of_ne m ρ c main_arg6 (by decide)).trans <| (W2_of_ne m ρ c main_arg6 (by decide)).trans (W1_of m ρ c main_arg6 (by decide))

/-! ## The proof data family and the thread state -/

abbrev adm : (p : Fin 2) → (pcfgs (F := F) p).Adm := fun p => (cfgs p).toPCfg_adm
/-- Each call's proof data at its own entry contents. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
abbrev 𝒱₀ : Variants := Variants.none
abbrev Lq : GSem nD τ sig → Finset Unit := fun _ => ∅
abbrev lvq : GSem nD τ sig → Unit → ℕ := fun _ _ => 0
/-- What rides beside the buffers through every segment: the generator register at some state, and nothing owed. -/
abbrev Rq (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lq lvq :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rq

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last contents, the register at some state. -/
abbrev Tlast (c : Dev nD) : sProp 𝕄 := iprop(StableHlo.held (c : Thread nD τ) (Pipeline.ucRefs τ sig) (W3 m ρ c) ∗ ∃ r, prngReg c r)

/-! ## The two calls as segments -/

/-- After the last point the first call's invariant gives back every scoped buffer no window stages, at some
    contents, and the generator register at some state. -/
theorem phi_out0' (V : (c : Dev nD) → (b : Ref sig .tc) → Buf (Elt F) ((c : Thread nD τ).loc b)) (c : Dev nD) :
    (dat0 V c).Φ (Fin.last cfg0.N) ⊢ (iprop(Pipeline.scopedRest (Ix := Unit) (Name := ℕ) (U := UR sig nD τ) (Lvl := ℕ) (Val := Elt F) spec0 c ∗ ∃ r, prngReg c r) : sProp 𝕄) := by
  have h := phi_out0 V c
  unfold Pipeline.ΦA at h
  exact h

set_option backward.isDefEq.respectTransparency.types false in
/-- The first call: entered from every unscoped buffer at `W1`, left at `W2`. Its arrays are split out of the
    unscoped buffers and put back at their exit contents; the generator register goes into the invariant and comes
    back; the scratch goes in at anything and comes back at anything. -/
def reg0 : Pipeline.RegionSeg (pcfgs (F := F)) adm (pdats m ρ) () defs₀ 𝒱₀ Lq lvq 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lq lvq 0 fun _ _ => rfl
  pre c := iprop(StableHlo.held (c : Thread nD τ) (Pipeline.ucRefs τ sig) (W1 m ρ c) ∗ Rq c)
  post c := iprop(StableHlo.held (c : Thread nD τ) (Pipeline.ucRefs τ sig) (W2 m ρ c) ∗ Rq c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (dat0 (U1 m ρ) c).Φ (Fin.last cfg0.N) from rfl]
    have hback := phi_out0' (U1 m ρ) c
    iintro H
    ihave H2 := hback $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at `W2`, left at `W3`; its invariant is the class's. -/
def reg1 : Pipeline.RegionSeg (pcfgs (F := F)) adm (pdats m ρ) () defs₀ 𝒱₀ Lq lvq 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ Lq lvq 1 fun _ _ => rfl
  pre c := iprop(StableHlo.held (c : Thread nD τ) (Pipeline.ucRefs τ sig) (W2 m ρ c) ∗ Rq c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ Lq lvq) :=
  [ .host (hseg hostOps0 hostOps0_sub hostOps0_fresh (W0 m ρ)),
    .region (reg0 m ρ),
    .region (reg1 m ρ) ]

theorem main_run (c : Dev nD) : main (F := F) c = Pipeline.Seg.run (segs m ρ) := (main_chain c).trans (by chain_rfl)

set_option backward.isDefEq.respectTransparency.types false in
/-- THE RUN. From any memory with zero counters every weakly fair execution of the program on the TensorCores
    terminates, nothing faulting, and in every final state each unscoped buffer holds what the last boundary's
    contents `W3` say. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ Lq lvq m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rq c)) (Tₙ := Tlast m ρ)
    (hch := ⟨fun _ => .rfl, fun _ => .rfl, fun _ => .rfl, fun _ => .rfl⟩)
    (hinit := by
      refine Pipeline.initEach Lq lvq fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

end Cert.KernelIdeal.Frm

end
-- ==== Proof.Spec.lean ====
/-
  The hypergraph convolution as one function of the argument arrays, index by index, on the extended reals.

  With node features `x` (8192 × 256), the two incidence arrays `hh` (2048 × 8192, hyperedges by nodes) and `hg`
  (8192 × 2048, nodes by hyperedges), two weight matrices and two bias rows:

    proj      h(n, j)   = Σ_k x(n, k) · w1(k, j) + b1(j)             -- the nodes projected
    edgeEmb   e(p, j)   = max (Σ_n hh(p, n) · h(n, j)) 0            -- gathered onto the hyperedges, rectified
    back      z(p, j)   = Σ_k e(p, k) · w2(k, j) + b2(j)             -- projected back
    nodeOut   o(n, j)   = max (Σ_p hg(n, p) · z(p, j)) 0            -- scattered onto the nodes, rectified

  The two results are `o` and `e`. Every stage reads whole rows and columns of the stage before it, so a
  computation that produces the rows of `e`, `z` or `o` a block at a time computes the same entries: an entry
  is a finite sum of products, and the sum does not depend on which block its row was grouped with.
-/
import Idealize.ShloMosaic.PureOps.Ideal
import Idealize.ShloMosaic.Lib.ValueIdx

noncomputable section

open scoped BigOperators

namespace Cert.HyperConv

open Idealize.ShloMosaic Idealize.ShloMosaic.ValueIdx

/-- An array of extended reals of `r` rows and `c` columns. -/
abbrev Arr (r c : Nat) : Type := (⟨2, ![r, c]⟩ : Shape).Idx → EReal
/-- A row of extended reals of length `n`. -/
abbrev Row (n : Nat) : Type := (⟨1, ![n]⟩ : Shape).Idx → EReal

/-- A matrix product plus a bias row: entry (r, j) is Σ_k a(r, k) · w(k, j) + b(j). -/
def affine {R K C : Nat} (a : Arr R K) (w : Arr K C) (b : Row C) : Arr R C :=
  fun i => (∑ k : Fin K, a (ix2 (i 0) k) * w (ix2 k (i 1))) + b (ix1 (i 1))

/-- A matrix product rectified: entry (r, j) is max (Σ_k a(r, k) · v(k, j)) 0. -/
def reluProd {R K C : Nat} (a : Arr R K) (v : Arr K C) : Arr R C :=
  fun i => max (∑ k : Fin K, a (ix2 (i 0) k) * v (ix2 k (i 1))) 0

/-- The projected node features `h = x · w1 + b1`. -/
def proj (x : Arr 8192 256) (w1 : Arr 256 256) (b1 : Row 256) : Arr 8192 256 := affine x w1 b1

/-- The hyperedge embedding, the second result: `max (hh · h) 0`. -/
def edgeEmb (x : Arr 8192 256) (hh : Arr 2048 8192) (w1 : Arr 256 256) (b1 : Row 256) : Arr 2048 256 :=
  reluProd hh (proj x w1 b1)

/-- The hyperedge embedding projected back, `z = e · w2 + b2`. -/
def back (x : Arr 8192 256) (hh : Arr 2048 8192) (w1 : Arr 256 256) (b1 : Row 256) (w2 : Arr 256 256) (b2 : Row 256) :
    Arr 2048 256 :=
  affine (edgeEmb x hh w1 b1) w2 b2

/-- The node output, the first result: `max (hg · z) 0`. -/
def nodeOut (x : Arr 8192 256) (hh : Arr 2048 8192) (hg : Arr 8192 2048) (w1 : Arr 256 256) (b1 : Row 256)
    (w2 : Arr 256 256) (b2 : Row 256) : Arr 8192 256 :=
  reluProd hg (back x hh w1 b1 w2 b2)

theorem affine_apply {R K C : Nat} (a : Arr R K) (w : Arr K C) (b : Row C) (r : Fin R) (j : Fin C) :
    affine a w b (ix2 r j) = (∑ k : Fin K, a (ix2 r k) * w (ix2 k j)) + b (ix1 j) := rfl

theorem reluProd_apply {R K C : Nat} (a : Arr R K) (v : Arr K C) (r : Fin R) (j : Fin C) :
    reluProd a v (ix2 r j) = max (∑ k : Fin K, a (ix2 r k) * v (ix2 k j)) 0 := rfl

end Cert.HyperConv

end
-- ==== Proof.Payloads.lean ====
import proofs.«172285_g28836410425909_cont_9to1_1670_15_alg».proof.Proof.Gen.KernelIdeal.Skeleton
import proofs.«172285_g28836410425909_cont_9to1_1670_15_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.PayAt

open Idealize.ShloMosaic Idealize.ShloMosaic.ValueIdx Cert.KernelIdeal Cert.KernelIdeal.Gen Cert.HyperConv

/-! # The kernel's four payloads, at the extended reals, are the specification's block functions

At the extended reals a change of float format is the identity, a product into a zero accumulator is the plain
sum of products over the contraction coordinate, a cast of a shape to itself does nothing, and a one-row block
broadcast over many rows reads its one row. So each payload, read at an entry `(p, q)`, is a sum of products,
plus the bias row's entry `q` or rectified against zero: the entry of `affine` or `reluProd`. -/

/-- A [1, n] block read as a row. -/
def rowOf (b : Vec Ideal S1x256 .f32) : Row 256 := fun j => b (ix2 (0 : Fin 1) (j 0))

/-! ## The pointwise pieces -/

/-- A narrowing change of format does nothing to an array of extended reals. -/
theorem truncf_eq_self {s : Shape} {φ ψ : FTy} (a : FVec Ideal s φ) (h : ψ.bits < φ.bits) :
    (truncf ψ a h : FVec Ideal s ψ) = a := rfl

/-- The zero scalar broadcast over a block reads the extended real `0` everywhere. -/
theorem zeroSplat_apply {s : Shape} (i : s.Idx) :
    broadcast s (Scalar.ofBits (F := Ideal) .f32 0x00000000#32) i = (0 : EReal) :=
  Ideal.ofBits_zero_f32

/-- A [1, 256] block, cast to its own shape and broadcast over 8192 rows, reads at `(p, q)` its one row at `q`. -/
theorem rowBroadcast_8192_apply (b : FVec Ideal S1x256 .f32) (hc : S1x256.ShapeCasts S1x256)
    (hb : S1x256.Broadcasts S8192x256) (p : Fin 8192) (q : Fin 256) :
    broadcastTo S8192x256 (shapeCast S1x256 b hc) hb (ix2 p q) = b (ix2 (0 : Fin 1) q) :=
  (broadcastTo_1b_ab_apply _ hb p q).trans (congrFun (shapeCast_self b hc) _)

/-- The same over 512 rows. -/
theorem rowBroadcast_512_apply (b : FVec Ideal S1x256 .f32) (hc : S1x256.ShapeCasts S1x256)
    (hb : S1x256.Broadcasts S512x256) (p : Fin 512) (q : Fin 256) :
    broadcastTo S512x256 (shapeCast S1x256 b hc) hb (ix2 p q) = b (ix2 (0 : Fin 1) q) :=
  (broadcastTo_1b_ab_apply _ hb p q).trans (congrFun (shapeCast_self b hc) _)

/-! ## The four products, each read at an entry

For dimension numbers that contract the left operand's columns with the right operand's rows, the left operand
is read at (output row, contraction coordinate) and the right one at (contraction coordinate, output column). -/

/-! ### [8192, 256] × [256, 256] -/

theorem lhsRow_8192_256_256 (i : S8192x256.Idx) (c : dot_S8192x256_S256x256_S8192x256_1_0_0_1_n_n.contr.Idx) :
    (dot_S8192x256_S256x256_S8192x256_1_0_0_1_n_n.lhsIdx i c 0).val = (i 0).val := by
  unfold DotDims.lhsIdx
  rw [dif_neg (show ¬(0 : Fin S8192x256.rank) ∈ dot_S8192x256_S256x256_S8192x256_1_0_0_1_n_n.lhsBatch by decide),
    dif_pos (show (0 : Fin S8192x256.rank) ∈ dot_S8192x256_S256x256_S8192x256_1_0_0_1_n_n.lhsNonContracting by decide)]
  rfl

theorem rhsCol_8192_256_256 (i : S8192x256.Idx) (c : dot_S8192x256_S256x256_S8192x256_1_0_0_1_n_n.contr.Idx) :
    (dot_S8192x256_S256x256_S8192x256_1_0_0_1_n_n.rhsIdx i c 1).val = (i 1).val := by
  unfold DotDims.rhsIdx
  rw [dif_neg (show ¬(1 : Fin S256x256.rank) ∈ dot_S8192x256_S256x256_S8192x256_1_0_0_1_n_n.rhsBatch by decide),
    dif_pos (show (1 : Fin S256x256.rank) ∈ dot_S8192x256_S256x256_S8192x256_1_0_0_1_n_n.rhsNonContracting by decide)]
  rfl

/-- The product of an [8192, 256] block and a [256, 256] one into zero, at `(p, q)`: `Σ_k l(p, k) · r(k, q)`. -/
theorem matmul_8192_256_256_apply {φ₁ φ₂ : FTy} (l : FVec Ideal S8192x256 φ₁) (r : FVec Ideal S256x256 φ₂)
    (p : Fin 8192) (q : Fin 256) :
    matmul (F := Ideal) dot_S8192x256_S256x256_S8192x256_1_0_0_1_n_n none l r
        (constant (F := Ideal) S8192x256 .f32 0x00000000#32) (ix2 p q)
      = ∑ k : Fin 256, l (ix2 p k) * r (ix2 k q) := by
  refine (Ideal.matmul_constant_zero_apply dot_S8192x256_S256x256_S8192x256_1_0_0_1_n_n none l r (ix2 p q)).trans ?_
  rw [← Equiv.sum_comp (contrEquiv1 dot_S8192x256_S256x256_S8192x256_1_0_0_1_n_n 256 rfl rfl).symm]
  refine Finset.sum_congr rfl fun k _ => ?_
  have hk := contrEquiv1_symm_val dot_S8192x256_S256x256_S8192x256_1_0_0_1_n_n 256 rfl rfl k
  have el : dot_S8192x256_S256x256_S8192x256_1_0_0_1_n_n.lhsIdx (ix2 p q)
      ((contrEquiv1 dot_S8192x256_S256x256_S8192x256_1_0_0_1_n_n 256 rfl rfl).symm k) = ix2 p k :=
    funext fun a => Fin.ext (by
      match a with
      | ⟨0, _⟩ => exact lhsRow_8192_256_256 _ _
      | ⟨1, _⟩ => exact (dot_S8192x256_S256x256_S8192x256_1_0_0_1_n_n.lhsIdx_val_of_single rfl _ _).trans hk)
  have er : dot_S8192x256_S256x256_S8192x256_1_0_0_1_n_n.rhsIdx (ix2 p q)
      ((contrEquiv1 dot_S8192x256_S256x256_S8192x256_1_0_0_1_n_n 256 rfl rfl).symm k) = ix2 k q :=
    funext fun a => Fin.ext (by
      match a with
      | ⟨0, _⟩ => exact (dot_S8192x256_S256x256_S8192x256_1_0_0_1_n_n.rhsIdx_val_of_single rfl _ _).trans hk
      | ⟨1, _⟩ => exact rhsCol_8192_256_256 _ _)
  rw [el, er]

/-! ### [512, 8192] × [8192, 256] -/

theorem lhsRow_512_8192_256 (i : S512x256.Idx) (c : dot_S512x8192_S8192x256_S512x256_1_0_0_1_n_n.contr.Idx) :
    (dot_S512x8192_S8192x256_S512x256_1_0_0_1_n_n.lhsIdx i c 0).val = (i 0).val := by
  unfold DotDims.lhsIdx
  rw [dif_neg (show ¬(0 : Fin S512x8192.rank) ∈ dot_S512x8192_S8192x256_S512x256_1_0_0_1_n_n.lhsBatch by decide),
    dif_pos (show (0 : Fin S512x8192.rank) ∈ dot_S512x8192_S8192x256_S512x256_1_0_0_1_n_n.lhsNonContracting by decide)]
  rfl

theorem rhsCol_512_8192_256 (i : S512x256.Idx) (c : dot_S512x8192_S8192x256_S512x256_1_0_0_1_n_n.contr.Idx) :
    (dot_S512x8192_S8192x256_S512x256_1_0_0_1_n_n.rhsIdx i c 1).val = (i 1).val := by
  unfold DotDims.rhsIdx
  rw [dif_neg (show ¬(1 : Fin S8192x256.rank) ∈ dot_S512x8192_S8192x256_S512x256_1_0_0_1_n_n.rhsBatch by decide),
    dif_pos (show (1 : Fin S8192x256.rank) ∈ dot_S512x8192_S8192x256_S512x256_1_0_0_1_n_n.rhsNonContracting by decide)]
  rfl

/-- The product of a [512, 8192] block and an [8192, 256] one into zero, at `(p, q)`: `Σ_k l(p, k) · r(k, q)`. -/
theorem matmul_512_8192_256_apply {φ₁ φ₂ : FTy} (l : FVec Ideal S512x8192 φ₁) (r : FVec Ideal S8192x256 φ₂)
    (p : Fin 512) (q : Fin 256) :
    matmul (F := Ideal) dot_S512x8192_S8192x256_S512x256_1_0_0_1_n_n none l r
        (constant (F := Ideal) S512x256 .f32 0x00000000#32) (ix2 p q)
      = ∑ k : Fin 8192, l (ix2 p k) * r (ix2 k q) := by
  refine (Ideal.matmul_constant_zero_apply dot_S512x8192_S8192x256_S512x256_1_0_0_1_n_n none l r (ix2 p q)).trans ?_
  rw [← Equiv.sum_comp (contrEquiv1 dot_S512x8192_S8192x256_S512x256_1_0_0_1_n_n 8192 rfl rfl).symm]
  refine Finset.sum_congr rfl fun k _ => ?_
  have hk := contrEquiv1_symm_val dot_S512x8192_S8192x256_S512x256_1_0_0_1_n_n 8192 rfl rfl k
  have el : dot_S512x8192_S8192x256_S512x256_1_0_0_1_n_n.lhsIdx (ix2 p q)
      ((contrEquiv1 dot_S512x8192_S8192x256_S512x256_1_0_0_1_n_n 8192 rfl rfl).symm k) = ix2 p k :=
    funext fun a => Fin.ext (by
      match a with
      | ⟨0, _⟩ => exact lhsRow_512_8192_256 _ _
      | ⟨1, _⟩ => exact (dot_S512x8192_S8192x256_S512x256_1_0_0_1_n_n.lhsIdx_val_of_single rfl _ _).trans hk)
  have er : dot_S512x8192_S8192x256_S512x256_1_0_0_1_n_n.rhsIdx (ix2 p q)
      ((contrEquiv1 dot_S512x8192_S8192x256_S512x256_1_0_0_1_n_n 8192 rfl rfl).symm k) = ix2 k q :=
    funext fun a => Fin.ext (by
      match a with
      | ⟨0, _⟩ => exact (dot_S512x8192_S8192x256_S512x256_1_0_0_1_n_n.rhsIdx_val_of_single rfl _ _).trans hk
      | ⟨1, _⟩ => exact rhsCol_512_8192_256 _ _)
  rw [el, er]

/-! ### [512, 256] × [256, 256] -/

theorem lhsRow_512_256_256 (i : S512x256.Idx) (c : dot_S512x256_S256x256_S512x256_1_0_0_1_n_n.contr.Idx) :
    (dot_S512x256_S256x256_S512x256_1_0_0_1_n_n.lhsIdx i c 0).val = (i 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl

theorem rhsCol_512_256_256 (i : S512x256.Idx) (c : dot_S512x256_S256x256_S512x256_1_0_0_1_n_n.contr.Idx) :
    (dot_S512x256_S256x256_S512x256_1_0_0_1_n_n.rhsIdx i c 1).val = (i 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

/-- The product of a [512, 256] block and a [256, 256] one into zero, at `(p, q)`: `Σ_k l(p, k) · r(k, q)`. -/
theorem matmul_512_256_256_apply {φ₁ φ₂ : FTy} (l : FVec Ideal S512x256 φ₁) (r : FVec Ideal S256x256 φ₂)
    (p : Fin 512) (q : Fin 256) :
    matmul (F := Ideal) dot_S512x256_S256x256_S512x256_1_0_0_1_n_n none l r
        (constant (F := Ideal) S512x256 .f32 0x00000000#32) (ix2 p q)
      = ∑ k : Fin 256, l (ix2 p k) * r (ix2 k q) := by
  refine (Ideal.matmul_constant_zero_apply dot_S512x256_S256x256_S512x256_1_0_0_1_n_n none l r (ix2 p q)).trans ?_
  rw [← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p q)
      ((contrEquiv1 dot_S512x256_S256x256_S512x256_1_0_0_1_n_n 256 rfl rfl).symm k) = ix2 p k :=
    funext fun a => Fin.ext (by
      match a with
      | ⟨0, _⟩ => exact lhsRow_512_256_256 _ _
      | ⟨1, _⟩ => exact (dot_S512x256_S256x256_S512x256_1_0_0_1_n_n.lhsIdx_val_of_single rfl _ _).trans hk)
  have er : dot_S512x256_S256x256_S512x256_1_0_0_1_n_n.rhsIdx (ix2 p q)
      ((contrEquiv1 dot_S512x256_S256x256_S512x256_1_0_0_1_n_n 256 rfl rfl).symm k) = ix2 k q :=
    funext fun a => Fin.ext (by
      match a with
      | ⟨0, _⟩ => exact (dot_S512x256_S256x256_S512x256_1_0_0_1_n_n.rhsIdx_val_of_single rfl _ _).trans hk
      | ⟨1, _⟩ => exact rhsCol_512_256_256 _ _)
  rw [el, er]

/-! ### [1024, 2048] × [2048, 256] -/

theorem lhsRow_1024_2048_256 (i : S1024x256.Idx) (c : dot_S1024x2048_S2048x256_S1024x256_1_0_0_1_n_n.contr.Idx) :
    (dot_S1024x2048_S2048x256_S1024x256_1_0_0_1_n_n.lhsIdx i c 0).val = (i 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl

theorem rhsCol_1024_2048_256 (i : S1024x256.Idx) (c : dot_S1024x2048_S2048x256_S1024x256_1_0_0_1_n_n.contr.Idx) :
    (dot_S1024x2048_S2048x256_S1024x256_1_0_0_1_n_n.rhsIdx i c 1).val = (i 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- The product of a [1024, 2048] block and a [2048, 256] one into zero, at `(p, q)`: `Σ_k l(p, k) · r(k, q)`. -/
theorem matmul_1024_2048_256_apply {φ₁ φ₂ : FTy} (l : FVec Ideal S1024x2048 φ₁) (r : FVec Ideal S2048x256 φ₂)
    (p : Fin 1024) (q : Fin 256) :
    matmul (F := Ideal) dot_S1024x2048_S2048x256_S1024x256_1_0_0_1_n_n none l r
        (constant (F := Ideal) S1024x256 .f32 0x00000000#32) (ix2 p q)
      = ∑ k : Fin 2048, l (ix2 p k) * r (ix2 k q) := by
  refine (Ideal.matmul_constant_zero_apply dot_S1024x2048_S2048x256_S1024x256_1_0_0_1_n_n none l r (ix2 p q)).trans ?_
  rw [← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p q)
      ((contrEquiv1 dot_S1024x2048_S2048x256_S1024x256_1_0_0_1_n_n 2048 rfl rfl).symm k) = ix2 p k :=
    funext fun a => Fin.ext (by
      match a with
      | ⟨0, _⟩ => exact lhsRow_1024_2048_256 _ _
      | ⟨1, _⟩ => exact (dot_S1024x2048_S2048x256_S1024x256_1_0_0_1_n_n.lhsIdx_val_of_single rfl _ _).trans hk)
  have er : dot_S1024x2048_S2048x256_S1024x256_1_0_0_1_n_n.rhsIdx (ix2 p q)
      ((contrEquiv1 dot_S1024x2048_S2048x256_S1024x256_1_0_0_1_n_n 2048 rfl rfl).symm k) = ix2 k q :=
    funext fun a => Fin.ext (by
      match a with
      | ⟨0, _⟩ => exact (dot_S1024x2048_S2048x256_S1024x256_1_0_0_1_n_n.rhsIdx_val_of_single rfl _ _).trans hk
      | ⟨1, _⟩ => exact rhsCol_1024_2048_256 _ _)
  rw [el, er]

/-! ## The payloads -/

/-- The first payload is the affine map `x · w + b`: the node features projected. -/
theorem pay1_eq (x : Vec Ideal S8192x256 .f32) (w : Vec Ideal S256x256 .f32) (b : Vec Ideal S1x256 .f32) :
    k0_pay1 (F := Ideal) x w b = affine x w (rowOf b) := by
  funext j
  obtain ⟨p, q, rfl⟩ : ∃ (p : Fin 8192) (q : Fin 256), j = ix2 p q := ⟨j 0, j 1, eq_ix2 j⟩
  unfold k0_pay1
  refine (congrFun (shapeCast_self _ _) _).trans ?_
  refine (truncf_apply (ψ := .bf16) _ bitsLt_bf16_f32 (ix2 p q)).trans ?_
  refine (addf_apply _ _ _).trans ?_
  rw [affine_apply]
  exact congrArg₂ (· + ·) (matmul_8192_256_256_apply _ _ p q) (rowBroadcast_8192_apply b _ _ p q)

/-- The second payload is the rectified product `max (a · h) 0`. -/
theorem pay2_eq (a : Vec Ideal S512x8192 .f32) (h : Vec Ideal S8192x256 .bf16) :
    k0_pay2 (F := Ideal) a h = reluProd a h := by
  funext j
  obtain ⟨p, q, rfl⟩ : ∃ (p : Fin 512) (q : Fin 256), j = ix2 p q := ⟨j 0, j 1, eq_ix2 j⟩
  unfold k0_pay2
  refine (maximumf_apply _ _ _).trans ?_
  rw [reluProd_apply]
  exact congrArg₂ max (matmul_512_8192_256_apply _ h p q) (zeroSplat_apply _)

/-- The third payload is the affine map of the second: `max (a · h) 0 · w + b`. -/
theorem pay3_eq (a : Vec Ideal S512x8192 .f32) (h : Vec Ideal S8192x256 .bf16) (w : Vec Ideal S256x256 .f32)
    (b : Vec Ideal S1x256 .f32) :
    k0_pay3 (F := Ideal) a h w b = affine (reluProd a h) w (rowOf b) := by
  funext j
  obtain ⟨p, q, rfl⟩ : ∃ (p : Fin 512) (q : Fin 256), j = ix2 p q := ⟨j 0, j 1, eq_ix2 j⟩
  unfold k0_pay3
  rw [pay2_eq a h]
  refine (truncf_apply (ψ := .bf16) _ bitsLt_bf16_f32 (ix2 p q)).trans ?_
  refine (addf_apply _ _ _).trans ?_
  rw [affine_apply]
  exact congrArg₂ (· + ·) (matmul_512_256_256_apply _ _ p q) (rowBroadcast_512_apply b _ _ p q)

/-- The second launch's payload is the rectified product `max (a · z) 0`. -/
theorem pay4_eq (a : Vec Ideal S1024x2048 .f32) (z : Vec Ideal S2048x256 .bf16) :
    k1_pay1 (F := Ideal) a z = reluProd a z := by
  funext j
  obtain ⟨p, q, rfl⟩ : ∃ (p : Fin 1024) (q : Fin 256), j = ix2 p q := ⟨j 0, j 1, eq_ix2 j⟩
  unfold k1_pay1
  refine (maximumf_apply _ _ _).trans ?_
  rw [reluProd_apply, shapeCast_self]
  exact congrArg₂ max (matmul_1024_2048_256_apply _ z p q) (zeroSplat_apply _)

end Cert.KernelIdeal.PayAt

end
-- ==== Proof.IdealValue.lean ====
/-
  What the two calls' output arrays hold when each returns, at the ideal instance, as whole-array functions of the
  arrays each call finds.

  A point's block of an output window is rows 512·t … 512·t + 511 (first call) or 1024·t … 1024·t + 1023 (second call)
  of the array, all 256 columns; the incidence window's block is the same rows of the incidence array, all its
  columns; every other window is a whole array, the same block at every point. The body's payloads are matrix
  products whose row index is the block's row: so entry (r, j) of a point's output block is entry (rows·t + r, j) of
  the product taken over the whole incidence array — each entry of a product reads ONE row of its left factor. The
  blocks of the four (eight) points tile the output array, which therefore ends holding the whole product.
-/
import proofs.«172285_g28836410425909_cont_9to1_1670_15_alg».proof.Proof.IdealRun
import proofs.«172285_g28836410425909_cont_9to1_1670_15_alg».proof.Proof.Payloads
import proofs.«172285_g28836410425909_cont_9to1_1670_15_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm Cert.KernelIdeal.PayAt Cert.HyperConv

variable (V : (c : Dev nD) → (b : Ref sig .tc) → Buf (Elt Ideal) ((c : Thread nD τ).loc b))

theorem hz : (![0, 0] : Fin 2 → Nat) = fun _ => 0 := funext fun a => by fin_cases a <;> rfl

/-! ## The first call -/

/-- The printed index maps over the grid: the incidence window and the two output windows move one block of rows
    per point; the other five windows stay on their one block. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- A whole-array window's block is the array. -/
theorem feat_read (c : Dev nD) (t : Fin cfg0.N) : (blk0 V c 1 t : Arr 8192 256) = V c main_arg0 := by
  funext y
  show V c main_arg0 (((cfg0.win 1).blk t).view.emb y) = V c main_arg0 y
  refine congrArg _ (funext fun a => Fin.ext ?_)
  obtain ⟨-, -, e0, e1, -⟩ := idx0 t
  match a with
  | ⟨0, _⟩ => show win0_1.index t (0 : Fin 2) * 8192 + 1 * (y 0).val = (y 0).val; omega
  | ⟨1, _⟩ => show win0_1.index t (1 : Fin 2) * 256 + 1 * (y 1).val = (y 1).val; omega
theorem wt1_read (c : Dev nD) (t : Fin cfg0.N) : (blk0 V c 2 t : Arr 256 256) = V c main_arg3 := by
  funext y
  show V c main_arg3 (((cfg0.win 2).blk t).view.emb y) = V c main_arg3 y
  refine congrArg _ (funext fun a => Fin.ext ?_)
  obtain ⟨-, -, -, -, e0, e1, -⟩ := idx0 t
  match a with
  | ⟨0, _⟩ => show win0_2.index t (0 : Fin 2) * 256 + 1 * (y 0).val = (y 0).val; omega
  | ⟨1, _⟩ => show win0_2.index t (1 : Fin 2) * 256 + 1 * (y 1).val = (y 1).val; omega
theorem bias1_read (c : Dev nD) (t : Fin cfg0.N) : (blk0 V c 3 t : Vec Ideal S1x256 .f32) = V c main_v0 := by
  funext y
  show V c main_v0 (((cfg0.win 3).blk t).view.emb y) = V c main_v0 y
  refine congrArg _ (funext fun a => Fin.ext ?_)
  obtain ⟨-, -, -, -, -, -, e0, e1, -⟩ := idx0 t
  match a with
  | ⟨0, _⟩ => show win0_3.index t (0 : Fin 2) * 1 + 1 * (y 0).val = (y 0).val; omega
  | ⟨1, _⟩ => show win0_3.index t (1 : Fin 2) * 256 + 1 * (y 1).val = (y 1).val; omega
theorem wt2_read (c : Dev nD) (t : Fin cfg0.N) : (blk0 V c 4 t : Arr 256 256) = V c main_arg5 := by
  funext y
  show V c main_arg5 (((cfg0.win 4).blk t).view.emb y) = V c main_arg5 y
  refine congrArg _ (funext fun a => Fin.ext ?_)
  obtain ⟨-, -, -, -, -, -, -, -, e0, e1, -⟩ := idx0 t
  match a with
  | ⟨0, _⟩ => show win0_4.index t (0 : Fin 2) * 256 + 1 * (y 0).val = (y 0).val; omega
  | ⟨1, _⟩ => show win0_4.index t (1 : Fin 2) * 256 + 1 * (y 1).val = (y 1).val; omega
theorem bias2_read (c : Dev nD) (t : Fin cfg0.N) : (blk0 V c 5 t : Vec Ideal S1x256 .f32) = V c main_v1 := by
  funext y
  show V c main_v1 (((cfg0.win 5).blk t).view.emb y) = V c main_v1 y
  refine congrArg _ (funext fun a => Fin.ext ?_)
  obtain ⟨-, -, -, -, -, -, -, -, -, -, e0, e1, -⟩ := idx0 t
  match a with
  | ⟨0, _⟩ => show win0_5.index t (0 : Fin 2) * 1 + 1 * (y 0).val = (y 0).val; omega
  | ⟨1, _⟩ => show win0_5.index t (1 : Fin 2) * 256 + 1 * (y 1).val = (y 1).val; omega

/-- Row `p` of point `t`'s incidence block is row `512·t + p` of the incidence array. -/
theorem rows_read (c : Dev nD) (t : Fin cfg0.N) (p : Fin 512) (P : Fin 2048) (hP : P.val = t.val * 512 + p.val) (k : Fin 8192) :
    (blk0 V c 0 t : Arr 512 8192) (ix2 p k) = (V c main_arg1 : Arr 2048 8192) (ix2 P k) := by
  show V c main_arg1 (((cfg0.win 0).blk t).view.emb (ix2 p k)) = V c main_arg1 (ix2 P k)
  refine congrArg _ (funext fun a => Fin.ext ?_)
  obtain ⟨e0, e1, -⟩ := idx0 t
  match a with
  | ⟨0, _⟩ => show win0_0.index t (0 : Fin 2) * 512 + 1 * p.val = P.val; omega
  | ⟨1, _⟩ => show win0_0.index t (1 : Fin 2) * 8192 + 1 * k.val = k.val; omega

/-- The projected features, from the arrays the call finds. -/
def projOf (c : Dev nD) : Arr 8192 256 := affine (V c main_arg0 : Arr 8192 256) (V c main_arg3 : Arr 256 256) (rowOf (V c main_v0))
/-- The first output array: the hyperedge embedding. -/
def embOf (c : Dev nD) : Arr 2048 256 := reluProd (V c main_arg1 : Arr 2048 8192) (projOf V c)
/-- The second output array: the embedding projected back. -/
def backOf (c : Dev nD) : Arr 2048 256 := affine (embOf V c) (V c main_arg5 : Arr 256 256) (rowOf (V c main_v1))

/-- The scratch holds the projected features. -/
theorem scr_eq (c : Dev nD) : (scrAt V c : Arr 8192 256) = projOf V c := by
  unfold scrAt scr
  rw [View.canon_unit_zero hz]
  simp only [View.ld_unit_zero (S := S8192x256) hz, View.ld_unit_zero (S := S256x256) hz, View.ld_unit_zero (S := S1x256) hz]
  rw [pay1_eq]
  unfold projOf
  rw [feat_read, wt1_read, bias1_read]

/-- An entry of a rectified product reads one row of the left factor: row `p` of a point's incidence block gives
    the entry of row `512·t + p` of the product over the whole incidence array. -/
theorem relu_rows (c : Dev nD) (t : Fin cfg0.N) (p : Fin 512) (P : Fin 2048) (hP : P.val = t.val * 512 + p.val)
    (S : Arr 8192 256) (j : Fin 256) :
    reluProd (blk0 V c 0 t : Arr 512 8192) S (ix2 p j) = reluProd (V c main_arg1 : Arr 2048 8192) S (ix2 P j) := by
  rw [reluProd_apply, reluProd_apply]
  refine congrArg (max · 0) (Finset.sum_congr rfl fun k _ => ?_)
  rw [rows_read V c t p P hP k]

/-- Where point `t`'s block of the first output window puts its entry (p, q): row `512·t + p`, column `q`. -/
theorem emb_E (t : Fin cfg0.N) (p : Fin 512) (q : Fin 256) (P : Fin 2048) (hP : P.val = t.val * 512 + p.val) :
    ((cfg0.win 6).blk t).view.emb (ix2 p q) = (ix2 P q : S2048x256.Idx) := by
  obtain ⟨-, -, -, -, -, -, -, -, -, -, -, -, e0, e1, -⟩ := idx0 t
  funext a; apply Fin.ext
  match a with
  | ⟨0, _⟩ => show win0_6.index t (0 : Fin 2) * 512 + 1 * p.val = P.val; omega
  | ⟨1, _⟩ => show win0_6.index t (1 : Fin 2) * 256 + 1 * q.val = q.val; omega
/-- The same for the second output window. -/
theorem emb_Z (t : Fin cfg0.N) (p : Fin 512) (q : Fin 256) (P : Fin 2048) (hP : P.val = t.val * 512 + p.val) :
    ((cfg0.win 7).blk t).view.emb (ix2 p q) = (ix2 P q : S2048x256.Idx) := by
  obtain ⟨-, -, -, -, -, -, -, -, -, -, -, -, -, -, e0, e1⟩ := idx0 t
  funext a; apply Fin.ext
  match a with
  | ⟨0, _⟩ => show win0_7.index t (0 : Fin 2) * 512 + 1 * p.val = P.val; omega
  | ⟨1, _⟩ => show win0_7.index t (1 : Fin 2) * 256 + 1 * q.val = q.val; omega

/-- WHAT POINT `t` WRITES BACK through the first output window is block `t` of the hyperedge embedding. -/
theorem flushed_E (c : Dev nD) (t : Fin cfg0.N) :
    (dat0 V c).flushed 6 t = ((cfg0.win 6).blk t).view.read (Elt Ideal) (embOf V c) := by
  show (cfg0.win 6).cut (grid0.coords t) ((dat0 V c).after 6 t) = _
  rw [after0_6]
  unfold outE
  rw [View.canon_unit_zero hz]
  simp only [View.ld_unit_zero (S := S512x8192) hz, View.ld_unit_zero (S := S8192x256) hz]
  rw [pay2_eq, scr_eq]
  have h4 : t.val < 4 := lt_of_lt_of_eq t.isLt N_0
  funext j
  obtain ⟨p, q, rfl⟩ : ∃ (p : Fin 512) (q : Fin 256), j = ix2 p q := ⟨j 0, j 1, eq_ix2 j⟩
  show reluProd (blk0 V c 0 t : Arr 512 8192) (projOf V c) (ix2 p q) = embOf V c (((cfg0.win 6).blk t).view.emb (ix2 p q))
  rw [emb_E t p q ⟨t.val * 512 + p.val, by omega⟩ rfl]
  exact relu_rows V c t p _ rfl _ q

/-- And through the second, block `t` of the embedding projected back. -/
theorem flushed_Z (c : Dev nD) (t : Fin cfg0.N) :
    (dat0 V c).flushed 7 t = ((cfg0.win 7).blk t).view.read (Elt Ideal) (backOf V c) := by
  show (cfg0.win 7).cut (grid0.coords t) ((dat0 V c).after 7 t) = _
  rw [after0_7]
  unfold outZ
  rw [View.canon_unit_zero hz]
  simp only [View.ld_unit_zero (S := S512x8192) hz, View.ld_unit_zero (S := S8192x256) hz, View.ld_unit_zero (S := S256x256) hz,
    View.ld_unit_zero (S := S1x256) hz]
  rw [pay3_eq, scr_eq, wt2_read, bias2_read]
  have h4 : t.val < 4 := lt_of_lt_of_eq t.isLt N_0
  funext j
  obtain ⟨p, q, rfl⟩ : ∃ (p : Fin 512) (q : Fin 256), j = ix2 p q := ⟨j 0, j 1, eq_ix2 j⟩
  show affine (reluProd (blk0 V c 0 t : Arr 512 8192) (projOf V c)) (V c main_arg5 : Arr 256 256) (rowOf (V c main_v1)) (ix2 p q)
    = backOf V c (((cfg0.win 7).blk t).view.emb (ix2 p q))
  rw [emb_Z t p q ⟨t.val * 512 + p.val, by omega⟩ rfl]
  unfold backOf embOf
  rw [affine_apply, affine_apply]
  refine congrArg (· + _) (Finset.sum_congr rfl fun k _ => ?_)
  rw [relu_rows V c t p ⟨t.val * 512 + p.val, by omega⟩ rfl _ k]

/-- An index of a 2048 × 256 output array is in point `t`'s block iff each coordinate is in the block's range. -/
theorem mem_blk_E (t : Fin cfg0.N) (i : S2048x256.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v2_0).slice (win0_6.rect t)).set ↔ _
  rw [View.set_slice_whole, Rect.mem_set_unit]
  exact Iff.rfl
theorem mem_blk_Z (t : Fin cfg0.N) (i : S2048x256.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v2_1).slice (win0_7.rect t)).set ↔ _
  rw [View.set_slice_whole, Rect.mem_set_unit]
  exact Iff.rfl

/-- Every row is in the block of the point its number divided by 512 names: the four blocks tile the array. -/
theorem cover_E (i : S2048x256.Idx) : ∃ t : Fin cfg0.N, (cfg0.win 6).flush t = true ∧ i ∈ ((cfg0.win 6).blk t).view.set := by
  have hi0 : (i 0).val < 2048 := (i 0).isLt
  have hi1 : (i 1).val < 256 := (i 1).isLt
  have hN : cfg0.N = 4 := N_0
  refine ⟨⟨(i 0).val / 512, by rw [hN]; omega⟩, flush0_6 _, ?_⟩
  rw [mem_blk_E]
  obtain ⟨-, -, -, -, -, -, -, -, -, -, -, -, e0, e1, -⟩ := idx0 ⟨(i 0).val / 512, by rw [hN]; omega⟩
  intro a
  match a with
  | ⟨0, _⟩ =>
    show win0_6.index ⟨(i 0).val / 512, _⟩ (0 : Fin 2) * 512 ≤ (i 0).val ∧ (i 0).val < win0_6.index ⟨(i 0).val / 512, _⟩ (0 : Fin 2) * 512 + 512
    rw [e0]; show (i 0).val / 512 * 512 ≤ (i 0).val ∧ (i 0).val < (i 0).val / 512 * 512 + 512; omega
  | ⟨1, _⟩ =>
    show win0_6.index ⟨(i 0).val / 512, _⟩ (1 : Fin 2) * 256 ≤ (i 1).val ∧ (i 1).val < win0_6.index ⟨(i 0).val / 512, _⟩ (1 : Fin 2) * 256 + 256
    rw [e1]; omega
theorem cover_Z (i : S2048x256.Idx) : ∃ t : Fin cfg0.N, (cfg0.win 7).flush t = true ∧ i ∈ ((cfg0.win 7).blk t).view.set := by
  have hi0 : (i 0).val < 2048 := (i 0).isLt
  have hi1 : (i 1).val < 256 := (i 1).isLt
  have hN : cfg0.N = 4 := N_0
  refine ⟨⟨(i 0).val / 512, by rw [hN]; omega⟩, flush0_7 _, ?_⟩
  rw [mem_blk_Z]
  obtain ⟨-, -, -, -, -, -, -, -, -, -, -, -, -, -, e0, e1⟩ := idx0 ⟨(i 0).val / 512, by rw [hN]; omega⟩
  intro a
  match a with
  | ⟨0, _⟩ =>
    show win0_7.index ⟨(i 0).val / 512, _⟩ (0 : Fin 2) * 512 ≤ (i 0).val ∧ (i 0).val < win0_7.index ⟨(i 0).val / 512, _⟩ (0 : Fin 2) * 512 + 512
    rw [e0]; show (i 0).val / 512 * 512 ≤ (i 0).val ∧ (i 0).val < (i 0).val / 512 * 512 + 512; omega
  | ⟨1, _⟩ =>
    show win0_7.index ⟨(i 0).val / 512, _⟩ (1 : Fin 2) * 256 ≤ (i 1).val ∧ (i 1).val < win0_7.index ⟨(i 0).val / 512, _⟩ (1 : Fin 2) * 256 + 256
    rw [e1]; omega

/-- THE FIRST CALL'S OUTPUT ARRAYS when it returns. -/
theorem final_E (c : Dev nD) : (dat0 V c).arrAt 6 cfg0.N = embOf V c :=
  (dat0 V c).arrAt_eq_of_cover 6 (embOf V c) (fun t _ => flushed_E V c t) cover_E
theorem final_Z (c : Dev nD) : (dat0 V c).arrAt 7 cfg0.N = backOf V c :=
  (dat0 V c).arrAt_eq_of_cover 7 (backOf V c) (fun t _ => flushed_Z V c t) cover_Z

/-! ## The second call -/

theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The second window's block is the whole array the first call left. -/
theorem z_read (c : Dev nD) (t : Fin cfg1.N) : (blk1 V c 1 t : Arr 2048 256) = V c main_v2_1 := by
  funext y
  show V c main_v2_1 (((cfg1.win 1).blk t).view.emb y) = V c main_v2_1 y
  refine congrArg _ (funext fun a => Fin.ext ?_)
  obtain ⟨-, -, e0, e1, -⟩ := idx1 t
  match a with
  | ⟨0, _⟩ => show win1_1.index t (0 : Fin 2) * 2048 + 1 * (y 0).val = (y 0).val; omega
  | ⟨1, _⟩ => show win1_1.index t (1 : Fin 2) * 256 + 1 * (y 1).val = (y 1).val; omega

/-- Row `p` of point `t`'s incidence block is row `1024·t + p` of the node-by-hyperedge incidence array. -/
theorem rows1_read (c : Dev nD) (t : Fin cfg1.N) (p : Fin 1024) (P : Fin 8192) (hP : P.val = t.val * 1024 + p.val) (k : Fin 2048) :
    (blk1 V c 0 t : Arr 1024 2048) (ix2 p k) = (V c main_arg2 : Arr 8192 2048) (ix2 P k) := by
  show V c main_arg2 (((cfg1.win 0).blk t).view.emb (ix2 p k)) = V c main_arg2 (ix2 P k)
  refine congrArg _ (funext fun a => Fin.ext ?_)
  obtain ⟨e0, e1, -⟩ := idx1 t
  match a with
  | ⟨0, _⟩ => show win1_0.index t (0 : Fin 2) * 1024 + 1 * p.val = P.val; omega
  | ⟨1, _⟩ => show win1_0.index t (1 : Fin 2) * 2048 + 1 * k.val = k.val; omega

/-- The second call's output array, from the arrays it finds. -/
def outOf (c : Dev nD) : Arr 8192 256 := reluProd (V c main_arg2 : Arr 8192 2048) (V c main_v2_1 : Arr 2048 256)

theorem emb_O (t : Fin cfg1.N) (p : Fin 1024) (q : Fin 256) (P : Fin 8192) (hP : P.val = t.val * 1024 + p.val) :
    ((cfg1.win 2).blk t).view.emb (ix2 p q) = (ix2 P q : S8192x256.Idx) := by
  obtain ⟨-, -, -, -, e0, e1⟩ := idx1 t
  funext a; apply Fin.ext
  match a with
  | ⟨0, _⟩ => show win1_2.index t (0 : Fin 2) * 1024 + 1 * p.val = P.val; omega
  | ⟨1, _⟩ => show win1_2.index t (1 : Fin 2) * 256 + 1 * q.val = q.val; omega

/-- WHAT POINT `t` WRITES BACK is block `t` of the rectified product over the whole incidence array. -/
theorem flushed_O (c : Dev nD) (t : Fin cfg1.N) :
    (dat1 V c).flushed 2 t = ((cfg1.win 2).blk t).view.read (Elt Ideal) (outOf V c) := by
  show (cfg1.win 2).cut (grid1.coords t) ((dat1 V c).after 2 t) = _
  rw [after1_2]
  unfold out1
  rw [View.canon_unit_zero hz]
  simp only [View.ld_unit_zero (S := S1024x2048) hz, View.ld_unit_zero (S := S2048x256) hz]
  rw [pay4_eq, z_read]
  have h8 : t.val < 8 := lt_of_lt_of_eq t.isLt N_1
  funext j
  obtain ⟨p, q, rfl⟩ : ∃ (p : Fin 1024) (q : Fin 256), j = ix2 p q := ⟨j 0, j 1, eq_ix2 j⟩
  show reluProd (blk1 V c 0 t : Arr 1024 2048) (V c main_v2_1 : Arr 2048 256) (ix2 p q) = outOf V c (((cfg1.win 2).blk t).view.emb (ix2 p q))
  rw [emb_O t p q ⟨t.val * 1024 + p.val, by omega⟩ rfl]
  unfold outOf
  rw [reluProd_apply, reluProd_apply]
  refine congrArg (max · 0) (Finset.sum_congr rfl fun k _ => ?_)
  rw [rows1_read V c t p ⟨t.val * 1024 + p.val, by omega⟩ rfl k]

theorem mem_blk_O (t : Fin cfg1.N) (i : S8192x256.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v3).slice (win1_2.rect t)).set ↔ _
  rw [View.set_slice_whole, Rect.mem_set_unit]
  exact Iff.rfl

/-- The eight blocks tile the array. -/
theorem cover_O (i : S8192x256.Idx) : ∃ t : Fin cfg1.N, (cfg1.win 2).flush t = true ∧ i ∈ ((cfg1.win 2).blk t).view.set := by
  have hi0 : (i 0).val < 8192 := (i 0).isLt
  have hi1 : (i 1).val < 256 := (i 1).isLt
  have hN : cfg1.N = 8 := N_1
  refine ⟨⟨(i 0).val / 1024, by rw [hN]; omega⟩, flush1_2 _, ?_⟩
  rw [mem_blk_O]
  obtain ⟨-, -, -, -, e0, e1⟩ := idx1 ⟨(i 0).val / 1024, by rw [hN]; omega⟩
  intro a
  match a with
  | ⟨0, _⟩ =>
    show win1_2.index ⟨(i 0).val / 1024, _⟩ (0 : Fin 2) * 1024 ≤ (i 0).val ∧ (i 0).val < win1_2.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win1_2.index ⟨(i 0).val / 1024, _⟩ (1 : Fin 2) * 256 ≤ (i 1).val ∧ (i 1).val < win1_2.index ⟨(i 0).val / 1024, _⟩ (1 : Fin 2) * 256 + 256
    rw [e1]; omega

/-- THE SECOND CALL'S OUTPUT ARRAY when it returns. -/
theorem final_O (c : Dev nD) : (dat1 V c).arrAt 2 cfg1.N = outOf V c :=
  (dat1 V c).arrAt_eq_of_cover 2 (outOf V c) (fun t _ => flushed_O V c t) cover_O

/-! ## The two results, from the launch memory -/

section Results

variable (m : (ℓ : Loc nD τ sig) → Buf (Elt Ideal) ℓ) (ρ : Dev nD → PrngReg)

/-- A length-256 array reshaped to one row of 256 and read as a row is the array. -/
theorem row_of_reshape (x : S256.Idx → EReal) : rowOf (shapeCast S1x256 x shapeCasts_S256_S1x256) = x := by
  funext j
  unfold rowOf
  refine shapeCast_apply _ _ _ j ?_
  rw [Shape.rowMajor_val_one, Shape.rowMajor_val_two]
  show (j 0).val = 0 * 256 + (j 0).val
  omega

/-- The first bias as the first call finds it: the host's reshape of the argument. -/
theorem bias1_row (c : Dev nD) : rowOf (U1 m ρ c main_v0) = (m ((c : Thread nD τ).loc main_arg4) : Row 256) := by
  have e : (U1 m ρ c main_v0 : S1x256.Idx → EReal) = shapeCast S1x256 (m ((c : Thread nD τ).loc main_arg4)) shapeCasts_S256_S1x256 := by
    dsimp only [U1, W1, W0, hostOps0]; after_results; rfl
  rw [e]; exact row_of_reshape _
theorem bias2_row (c : Dev nD) : rowOf (U1 m ρ c main_v1) = (m ((c : Thread nD τ).loc main_arg6) : Row 256) := by
  have e : (U1 m ρ c main_v1 : S1x256.Idx → EReal) = shapeCast S1x256 (m ((c : Thread nD τ).loc main_arg6)) shapeCasts_S256_S1x256 := by
    dsimp only [U1, W1, W0, hostOps0]; after_results; rfl
  rw [e]; exact row_of_reshape _

/-- The hyperedge embedding the first call leaves, in terms of the launch memory. -/
theorem emb_launch (c : Dev nD) :
    embOf (U1 m ρ) c = edgeEmb (m ((c : Thread nD τ).loc main_arg0)) (m ((c : Thread nD τ).loc main_arg1))
      (m ((c : Thread nD τ).loc main_arg3)) (m ((c : Thread nD τ).loc main_arg4)) := by
  have a0 : U1 m ρ c main_arg0 = m ((c : Thread nD τ).loc main_arg0) := W1_of m ρ c main_arg0 (by decide)
  have a1 : U1 m ρ c main_arg1 = m ((c : Thread nD τ).loc main_arg1) := W1_of m ρ c main_arg1 (by decide)
  have a3 : U1 m ρ c main_arg3 = m ((c : Thread nD τ).loc main_arg3) := W1_of m ρ c main_arg3 (by decide)
  unfold embOf projOf edgeEmb proj
  rw [a0, a1, a3, bias1_row]
theorem back_launch (c : Dev nD) :
    backOf (U1 m ρ) c = back (m ((c : Thread nD τ).loc main_arg0)) (m ((c : Thread nD τ).loc main_arg1))
      (m ((c : Thread nD τ).loc main_arg3)) (m ((c : Thread nD τ).loc main_arg4)) (m ((c : Thread nD τ).loc main_arg5)) (m ((c : Thread nD τ).loc main_arg6)) := by
  have a5 : U1 m ρ c main_arg5 = m ((c : Thread nD τ).loc main_arg5) := W1_of m ρ c main_arg5 (by decide)
  unfold backOf back
  rw [emb_launch, a5, bias2_row]

/-- THE SECOND RESULT: when the program returns, `main_v2_0` holds the hyperedge embedding of the arguments. -/
theorem result_emb (c : Dev nD) :
    W3 m ρ c (Proc.devRef .tc main_v2_0) = edgeEmb (m ((c : Thread nD τ).loc main_arg0)) (m ((c : Thread nD τ).loc main_arg1))
      (m ((c : Thread nD τ).loc main_arg3)) (m ((c : Thread nD τ).loc main_arg4)) :=
  (W3_of_ne m ρ c main_v2_0 (by decide)).trans <| (W2_arr m ρ c 6).trans <| (final_E (U1 m ρ) c).trans (emb_launch m ρ c)

/-- THE FIRST RESULT: `main_v3` holds the node output of the arguments. -/
theorem result_out (c : Dev nD) :
    W3 m ρ c (Proc.devRef .tc main_v3) = nodeOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  have a2 : U2 m ρ c main_arg2 = m ((c : Thread nD τ).loc main_arg2) :=
    (W2_of_ne m ρ c main_arg2 (by decide)).trans (W1_of m ρ c main_arg2 (by decide))
  have az : U2 m ρ c main_v2_1 = back (m ((c : Thread nD τ).loc main_arg0)) (m ((c : Thread nD τ).loc main_arg1))
      (m ((c : Thread nD τ).loc main_arg3)) (m ((c : Thread nD τ).loc main_arg4)) (m ((c : Thread nD τ).loc main_arg5)) (m ((c : Thread nD τ).loc main_arg6)) :=
    (W2_arr m ρ c 7).trans <| (final_Z (U1 m ρ) c).trans (back_launch m ρ c)
  refine (W3_arr m ρ c 2).trans <| (final_O (U2 m ρ) c).trans ?_
  unfold outOf nodeOut
  rw [a2, az]

end Results

end Cert.KernelIdeal.Val

end
-- ==== Proof.RefSpec.lean ====
/-
  The reference program's two results are the specification's two functions, on the extended reals.

  The reference computes, one host operation at a time,
    h = x · w1 + b1,   e = max (hh · h) 0,   z = e · w2 + b2,   o = max (hg · z) 0,
  where each product read at an index (r, j) is the sum over the contracted axis of the left factor at (r, k)
  times the right factor at (k, j), each bias is a row read at column j whatever the row, and the rectifier's second
  operand is the constant 0 spread over the whole array. On the extended reals the float sum is `+` and the float
  maximum is `max`, so every stage is, entry by entry, the corresponding function of the specification:
  `affine` for a product plus a bias row, `reluProd` for a rectified product. The four stages are identified in
  order, each one using the stage before it as a whole array.
-/
import proofs.«172285_g28836410425909_cont_9to1_1670_15_alg».proof.Proof.Gen.ReferenceIdeal.Read
import proofs.«172285_g28836410425909_cont_9to1_1670_15_alg».proof.Proof.Spec

noncomputable section

open scoped BigOperators

namespace Cert.ReferenceIdeal.RefValue

open Idealize.ShloMosaic Idealize.ShloMosaic.ValueIdx Cert.ReferenceIdeal Cert.ReferenceIdeal.Read Cert.HyperConv

/-- The rectifier's zero operand of the hyperedge stage: the constant 0 read at any index is 0. -/
theorem relu_zero_2048 (i : S2048x256.Idx) : val_main_call0_v0 (F := Ideal) i = 0 := by
  rw [val_main_call0_v0_apply, val_main_call0_cst_apply, Ideal.ofBits_def, Ideal.ofBits_zero_f32]

/-- The rectifier's zero operand of the node stage: the constant 0 read at any index is 0. -/
theorem relu_zero_8192 (i : S8192x256.Idx) : val_main_call1_v0 (F := Ideal) i = 0 := by
  rw [val_main_call1_v0_apply, val_main_call1_cst_apply, Ideal.ofBits_def, Ideal.ofBits_zero_f32]

/-- The projected node features: h(n, j) = Σ_k x(n, k) · w1(k, j) + b1(j). The product's operands are read at
    (n, k) and (k, j); the bias, spread first over one row and then over all rows, is read at column j. -/
theorem ref_proj (x0 : (⟨S8192x256, .f32⟩ : BufTy).Contents (Elt Ideal)) (x3 : (⟨S256x256, .f32⟩ : BufTy).Contents (Elt Ideal))
    (x4 : (⟨S256, .f32⟩ : BufTy).Contents (Elt Ideal)) :
    val_main_v3 (F := Ideal) x0 x3 x4 = proj x0 x3 x4 := by
  funext i
  rw [val_main_v3_apply, val_main_v0_apply, val_main_v2_apply, val_main_v1_apply, Ideal.addf_def]
  have e1 : ∀ k : Fin 256, lidx_main_v0 i k = ix2 (i 0) k := fun k =>
    funext fun a => Fin.ext (by match a with | ⟨0, _⟩ => rfl | ⟨1, _⟩ => rfl)
  have e2 : ∀ k : Fin 256, ridx_main_v0 i k = ix2 k (i 1) := fun k =>
    funext fun a => Fin.ext (by match a with | ⟨0, _⟩ => rfl | ⟨1, _⟩ => rfl)
  have e3 : idx_main_v1 (idx_main_v2 i) = ix1 (i 1) :=
    funext fun a => Fin.ext (by match a with | ⟨0, _⟩ => rfl)
  simp only [e1, e2, e3]
  rfl

/-- The hyperedge embedding, the reference's second result: e(p, j) = max (Σ_n hh(p, n) · h(n, j)) 0. -/
theorem ref_edgeEmb (x0 : (⟨S8192x256, .f32⟩ : BufTy).Contents (Elt Ideal)) (x1 : (⟨S2048x8192, .f32⟩ : BufTy).Contents (Elt Ideal))
    (x3 : (⟨S256x256, .f32⟩ : BufTy).Contents (Elt Ideal)) (x4 : (⟨S256, .f32⟩ : BufTy).Contents (Elt Ideal)) :
    val_main_v5 (F := Ideal) x0 x1 x3 x4 = edgeEmb x0 x1 x3 x4 := by
  funext i
  rw [val_main_v5_apply, val_main_v4_apply, ref_proj, relu_zero_2048, Ideal.maximumf_def]
  have e1 : ∀ k : Fin 8192, lidx_main_v4 i k = ix2 (i 0) k := fun k =>
    funext fun a => Fin.ext (by match a with | ⟨0, _⟩ => rfl | ⟨1, _⟩ => rfl)
  have e2 : ∀ k : Fin 8192, ridx_main_v4 i k = ix2 k (i 1) := fun k =>
    funext fun a => Fin.ext (by match a with | ⟨0, _⟩ => rfl | ⟨1, _⟩ => rfl)
  simp only [e1, e2]
  rfl

/-- The embedding projected back: z(p, j) = Σ_k e(p, k) · w2(k, j) + b2(j). -/
theorem ref_back (x0 : (⟨S8192x256, .f32⟩ : BufTy).Contents (Elt Ideal)) (x1 : (⟨S2048x8192, .f32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) :
    val_main_v9 (F := Ideal) x0 x1 x3 x4 x5 x6 = back x0 x1 x3 x4 x5 x6 := by
  funext i
  rw [val_main_v9_apply, val_main_v6_apply, ref_edgeEmb, val_main_v8_apply, val_main_v7_apply, Ideal.addf_def]
  have e1 : ∀ k : Fin 256, lidx_main_v6 i k = ix2 (i 0) k := fun k =>
    funext fun a => Fin.ext (by match a with | ⟨0, _⟩ => rfl | ⟨1, _⟩ => rfl)
  have e2 : ∀ k : Fin 256, ridx_main_v6 i k = ix2 k (i 1) := fun k =>
    funext fun a => Fin.ext (by match a with | ⟨0, _⟩ => rfl | ⟨1, _⟩ => rfl)
  have e3 : idx_main_v7 (idx_main_v8 i) = ix1 (i 1) :=
    funext fun a => Fin.ext (by match a with | ⟨0, _⟩ => rfl)
  simp only [e1, e2, e3]
  rfl

/-- The node output, the reference's first result: o(n, j) = max (Σ_p hg(n, p) · z(p, j)) 0. -/
theorem ref_nodeOut (x0 : (⟨S8192x256, .f32⟩ : BufTy).Contents (Elt Ideal)) (x1 : (⟨S2048x8192, .f32⟩ : BufTy).Contents (Elt Ideal))
    (x2 : (⟨S8192x2048, .f32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) :
    val_main_v11 (F := Ideal) x0 x1 x2 x3 x4 x5 x6 = nodeOut x0 x1 x2 x3 x4 x5 x6 := by
  funext i
  rw [val_main_v11_apply, val_main_v10_apply, ref_back, relu_zero_8192, Ideal.maximumf_def]
  have e1 : ∀ k : Fin 2048, lidx_main_v10 i k = ix2 (i 0) k := fun k =>
    funext fun a => Fin.ext (by match a with | ⟨0, _⟩ => rfl | ⟨1, _⟩ => rfl)
  have e2 : ∀ k : Fin 2048, ridx_main_v10 i k = ix2 k (i 1) := fun k =>
    funext fun a => Fin.ext (by match a with | ⟨0, _⟩ => rfl | ⟨1, _⟩ => rfl)
  simp only [e1, e2]
  rfl

end Cert.ReferenceIdeal.RefValue

end
-- ==== Proof.lean ====
/-
  A hypergraph convolution as a two-call pipelined kernel against its plain array program: equal results on the
  extended reals.

  Both programs compute, from node features `x`, the incidence arrays `hh` (hyperedges by nodes) and `hg` (nodes by
  hyperedges), and two weight matrices with their bias rows,

      h = x · w1 + b1,    e = max (hh · h) 0,    z = e · w2 + b2,    o = max (hg · z) 0,

  and return `o` and `e`. The array program takes each product whole. The kernel's first call walks four blocks of
  512 rows of `hh`: at the first it fills a scratch buffer with `h`, which it keeps, and at every one it writes the
  block's rows of `e` and of `z`; its second call walks eight blocks of 1024 rows of `hg` and writes the block's rows of
  `o`. An entry of a matrix product is a finite sum over ONE row of the left factor, so the entries a block computes
  are the entries of the whole product at that block's rows, and the blocks tile the result: nothing else is used,
  in particular no finiteness of the inputs (a sum of products of extended reals is the same sum however its rows
  were grouped). Changes of float format are the identity at the ideal instance.

  Proof/Spec.lean states the four stages index by index; Proof/RefSpec.lean shows the array program's two results
  are them; Proof/IdealRegion0.lean and Proof/IdealRegion1.lean run the two kernel bodies at every grid point (the
  first with the scratch's contents carried between points); Proof/IdealRun.lean runs the whole program and reads
  every buffer at the end; Proof/Payloads.lean and Proof/IdealValue.lean read the kernel's results as the same four
  stages. The Bits* modules are the same run for the kernel as printed, whose frame is all that is claimed of it.
-/
import proofs.«172285_g28836410425909_cont_9to1_1670_15_alg».proof.Defs
import proofs.«172285_g28836410425909_cont_9to1_1670_15_alg».proof.Proof.Gen.Kernel
import proofs.«172285_g28836410425909_cont_9to1_1670_15_alg».proof.Proof.Gen.KernelIdeal
import proofs.«172285_g28836410425909_cont_9to1_1670_15_alg».proof.Proof.Gen.ReferenceIdeal
import proofs.«172285_g28836410425909_cont_9to1_1670_15_alg».proof.Proof.Gen.Pre_finite_inputs
import proofs.«172285_g28836410425909_cont_9to1_1670_15_alg».proof.Proof.Gen.ReferenceIdeal.Run
import proofs.«172285_g28836410425909_cont_9to1_1670_15_alg».proof.Proof.Gen.ReferenceIdeal.Read
import proofs.«172285_g28836410425909_cont_9to1_1670_15_alg».proof.Proof.BitsRun
import proofs.«172285_g28836410425909_cont_9to1_1670_15_alg».proof.Proof.IdealRun
import proofs.«172285_g28836410425909_cont_9to1_1670_15_alg».proof.Proof.IdealValue
import proofs.«172285_g28836410425909_cont_9to1_1670_15_alg».proof.Proof.RefSpec
import Idealize.ShloMosaic.Adequacy
import Idealize.ShloMosaic.Init

noncomputable section

namespace Cert.Proof

open Idealize.ShloMosaic Idealize.SL.Sem

/-- The kernel as printed runs to the end and leaves its arguments as launched. -/
theorem frame_k : Cert.frame_Kernel := fun m ρ _ => Cert.Kernel.Frm.frame (F := Bits) m ρ

/-- So does its idealization. -/
theorem frame_ki : Cert.frame_KernelIdeal := fun m ρ _ => Cert.KernelIdeal.Frm.frame (F := Ideal) m ρ

/-- And the array program: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation: there is nothing to restate. -/
theorem preserves : Cert.preserves_Kernel_KernelIdeal := trivial

/-- From memories agreeing on the seven arguments both programs end with the node output in the first result and
    the hyperedge embedding in the second. -/
theorem algebraic : Cert.algebraic_KernelIdeal_ReferenceIdeal := by
  intro m ρ m' ρ' _ hagree
  refine ⟨fun c => Cert.HyperConv.nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.HyperConv.edgeEmb (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c =>
      ⟨(h c _ (Cert.KernelIdeal.Frm.mem_uc Cert.KernelIdeal.main_v3 (by decide))).trans (Cert.KernelIdeal.Val.result_out m ρ c),
       (h c _ (Cert.KernelIdeal.Frm.mem_uc Cert.KernelIdeal.main_v2_0 (by decide))).trans (Cert.KernelIdeal.Val.result_emb m ρ c),
       (h c _ (Cert.KernelIdeal.Frm.mem_uc Cert.KernelIdeal.main_arg0 (by decide))).trans (Cert.KernelIdeal.Frm.W3_main_arg0 m ρ c),
       (h c _ (Cert.KernelIdeal.Frm.mem_uc Cert.KernelIdeal.main_arg1 (by decide))).trans (Cert.KernelIdeal.Frm.W3_main_arg1 m ρ c),
       (h c _ (Cert.KernelIdeal.Frm.mem_uc Cert.KernelIdeal.main_arg2 (by decide))).trans (Cert.KernelIdeal.Frm.W3_main_arg2 m ρ c),
       (h c _ (Cert.KernelIdeal.Frm.mem_uc Cert.KernelIdeal.main_arg3 (by decide))).trans (Cert.KernelIdeal.Frm.W3_main_arg3 m ρ c),
       (h c _ (Cert.KernelIdeal.Frm.mem_uc Cert.KernelIdeal.main_arg4 (by decide))).trans (Cert.KernelIdeal.Frm.W3_main_arg4 m ρ c),
       (h c _ (Cert.KernelIdeal.Frm.mem_uc Cert.KernelIdeal.main_arg5 (by decide))).trans (Cert.KernelIdeal.Frm.W3_main_arg5 m ρ c),
       (h c _ (Cert.KernelIdeal.Frm.mem_uc Cert.KernelIdeal.main_arg6 (by decide))).trans (Cert.KernelIdeal.Frm.W3_main_arg6 m ρ c)⟩)
      (Cert.KernelIdeal.Frm.run_all (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6⟩ := hagree c
      rw [Cert.ReferenceIdeal.Read.val_main_v11_eq, Cert.ReferenceIdeal.RefValue.ref_nodeOut, h0, h1, h2, h3, h4, h5, h6]
    · obtain ⟨h0, h1, h2, h3, h4, h5, h6⟩ := hagree c
      rw [Cert.ReferenceIdeal.Read.val_main_v5_eq, Cert.ReferenceIdeal.RefValue.ref_edgeEmb, h0, h1, h3, h4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
